-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S128 .f32) (main_arg6 : FVec F S128x8 .f32) (main_arg7 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x8 .f32 := Host.absf main_arg6
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x8 .f32) (main_arg7 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S1x8 : Shape := ⟨2, ![1, 8]⟩
abbrev S100000x8 : Shape := ⟨2, ![100000, 8]⟩
abbrev S5000x8 : Shape := ⟨2, ![5000, 8]⟩
abbrev S5000 : Shape := ⟨1, ![5000]⟩

abbrev nBuf : Space → Nat
  | .hbm => 64
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S8, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .bf16⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x128, .bf16⟩
  | .hbm, ⟨40, _⟩ => ⟨S1700000x128, .f32⟩
  | .hbm, ⟨41, _⟩ => ⟨S_, .f32⟩
  | .hbm, ⟨42, _⟩ => ⟨S100000x128, .f32⟩
  | .hbm, ⟨43, _⟩ => ⟨S1700000x1, .i32⟩
  | .hbm, ⟨44, _⟩ => ⟨S100000x128, .f32⟩
  | .hbm, ⟨45, _⟩ => ⟨S1x128, .f32⟩
  | .hbm, ⟨46, _⟩ => ⟨S100000x128, .bf16⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .bf16⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S1x8, .f32⟩
  | .hbm, ⟨63, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x8, .f32⟩
  | .local _ .vmem, ⟨21, _⟩ => ⟨S1x8, .f32⟩
  | .local _ .vmem, ⟨22, _⟩ => ⟨S5000x8, .f32⟩
  | .local _ .vmem, ⟨23, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S8_S1x8 : S8.ShapeCasts S1x8
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  reduces_S5000x8_S5000 : S5000x8.Reduces [1] S5000
  shapeCasts_S5000_S5000x1 : S5000.ShapeCasts S5000x1
  broadcasts_S5000x1_S5000x8 : S5000x1.Broadcasts S5000x8
  inb_S5000x8_S5000x8_0_0 : ∀ a, (![0, 0] : Fin 2 → Nat) a + S5000x8.size a ≤ S5000x8.size a
  h_S5000x8 : 0 < S5000x8.numel
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x8_S5000x8_1_0_0_1_n_n_wf : DotDims.WF S5000x128 S128x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .bf16 = 32 ∨ (Rect.block (s := S100000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x8.size a ≤ S128x8.size a
  hwx2_3 : ∀ i : grid2.Coords, EltTy.bits .f32 = 32 ∨ (Rect.block (s := S128x8) S128x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x8.size a ≤ S1x8.size a
  hwx2_4 : ∀ i : grid2.Coords, EltTy.bits .f32 = 32 ∨ (Rect.block (s := S1x8) S1x8.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x8.size a ≤ S100000x8.size a
  hwx2_5 : ∀ i : grid2.Coords, EltTy.bits .f32 = 32 ∨ (Rect.block (s := S100000x8) S5000x8.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S5000x8.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x8 : Shape := ⟨2, ![100000, 8]⟩
abbrev S1x8 : Shape := ⟨2, ![1, 8]⟩
abbrev S100000x1 : Shape := ⟨2, ![100000, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S8, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x8, .f32⟩
  | .hbm, ⟨95, _⟩ => ⟨S1x8, .f32⟩
  | .hbm, ⟨96, _⟩ => ⟨S100000x8, .f32⟩
  | .hbm, ⟨97, _⟩ => ⟨S100000x8, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x8, .f32⟩
  | .hbm, ⟨105, _⟩ => ⟨S100000x8, .f32⟩
  | .hbm, ⟨106, _⟩ => ⟨S100000x8, .f32⟩
  | .hbm, ⟨107, _⟩ => ⟨S_, .f32⟩
  | .hbm, ⟨108, _⟩ => ⟨S100000, .f32⟩
  | .hbm, ⟨109, _⟩ => ⟨S100000x1, .f32⟩
  | .hbm, ⟨110, _⟩ => ⟨S100000x8, .f32⟩
  | .hbm, ⟨111, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x8_S100000x8_1_0_0_1_n_n_wf : DotDims.WF S100000x128 S128x8 S100000x8 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf

class Facts : Prop extends Facts₀ where

variable [Facts]
-- ==== Proof.KernelRun.lean ====
/-
  THE KERNEL'S RUN WITH ITS RESULT NAMED.

  The program is three pallas_call regions among five stretches of host operations.  Every weakly fair execution
  from a memory `m` terminates without a fault, the argument arrays are unchanged, and the result array holds what
  the fold of the eight segments leaves at the result's buffer: `W8 m ρ c` read at the result's reference — the last
  region's output array after all its write-backs.  The launch is the one of the frame (the same segments, the same
  thread states); only the final read is taken at the result's buffer as well as at the arguments'.
-/
import proofs.«169769_j73504070303824_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents of its buffer, and every argument array as launched. -/
theorem run_result : θ_run defs (onTc (τ := τ) (main (F := F))) ⟨m, fun _ => 0, ρ⟩ (fun r => ∀ c : Dev nD,
      r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v43 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.LibColRow.lean ====
/-
  Column and row broadcasts of small rank, and a vector viewed as a column, read at an index.

  • A column `[R, 1]` spread over `C` columns reads, at `(p, q)`, the column's entry `(p, 0)`.
  • A row `[1, C]` repeated over `R` rows reads, at `(p, q)`, the row's entry `(0, q)`.
  • A vector `[R]` viewed as a column `[R, 1]` reads, at `(p, 0)`, the vector's entry `p`; a vector `[C]` viewed as a
    row `[1, C]` reads, at `(0, q)`, the vector's entry `q`.
  General in the extents and the element type.
-/
import Idealize.ShloMosaic.Lib.ValueIdx
import Idealize.ShloMosaic.Lib.Pipeline.Value

noncomputable section

namespace Cert.LibColRow

open Idealize.ShloMosaic Idealize.ShloMosaic.ValueIdx

variable {α : Type}

/-- A column `[R, 1]` broadcast to `[R, C]`, at `(p, q)`: the column at `(p, 0)`. -/
theorem bcastTo_col_apply {R C : Nat} (h : (⟨2, ![R, 1]⟩ : Shape).Broadcasts ⟨2, ![R, C]⟩)
    (x : (⟨2, ![R, 1]⟩ : Shape).Idx → α) (p : Fin R) (q : Fin C) :
    broadcastTo ⟨2, ![R, C]⟩ x h (ix2 p q) = x (ix2 p (0 : Fin 1)) := by
  refine broadcastTo_apply x h (ix2 p q) (ix2 p (0 : Fin 1)) fun a => ?_
  match a with
  | ⟨0, _⟩ =>
    show p.val = if R = 1 then 0 else p.val
    split
    · next h1 => have := p.isLt; omega
    · rfl
  | ⟨1, _⟩ =>
    show 0 = if (1 : Nat) = 1 then 0 else q.val
    rw [if_pos rfl]

/-- A row `[1, C]` broadcast to `[R, C]`, at `(p, q)`: the row at `(0, q)`. -/
theorem bcastTo_row_apply {R C : Nat} (h : (⟨2, ![1, C]⟩ : Shape).Broadcasts ⟨2, ![R, C]⟩)
    (x : (⟨2, ![1, C]⟩ : Shape).Idx → α) (p : Fin R) (q : Fin C) :
    broadcastTo ⟨2, ![R, C]⟩ x h (ix2 p q) = x (ix2 (0 : Fin 1) q) := by
  refine broadcastTo_apply x h (ix2 p q) (ix2 (0 : Fin 1) q) fun a => ?_
  match a with
  | ⟨0, _⟩ =>
    show 0 = if (1 : Nat) = 1 then 0 else p.val
    rw [if_pos rfl]
  | ⟨1, _⟩ =>
    show q.val = if C = 1 then 0 else q.val
    split
    · next h1 => have := q.isLt; omega
    · rfl

/-- A vector `[R]` viewed as a column `[R, 1]`, at `(p, z)`: the vector at `p`. -/
theorem shapeCast_col_apply {R : Nat} (h : (⟨1, ![R]⟩ : Shape).ShapeCasts ⟨2, ![R, 1]⟩)
    (x : (⟨1, ![R]⟩ : Shape).Idx → α) (p : Fin R) (z : Fin 1) :
    shapeCast ⟨2, ![R, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- A vector `[C]` viewed as a row `[1, C]`, at `(z, q)`: the vector at `q`. -/
theorem shapeCast_row_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  show q.val = z.val * C + q.val
  have := z.isLt
  have hz : z.val = 0 := by omega
  rw [hz, Nat.zero_mul, Nat.zero_add]

end Cert.LibColRow

end
-- ==== Proof.Layers.lean ====
/-
  The pieces of a two-layer graph convolution with a softmax head, as functions of whole tables over the extended reals.

  • `product H W`: the matrix product, entry `(i, j)` is `∑ₖ H(i, k) · W(k, j)`.
  • `hidden A d b`: a layer's activation from the raw neighbourhood sums `A`: entry `(i, k)` is
    `max (A(i, k) · d(i, 0) + b(0, k), 0)` — the destination node's weight, the bias, the rectifier.
  • `rowMax L p`: the maximum of row `p` of `L` (folded from `−∞`, and once more against `−∞`).
  • `softmaxRows L`: entry `(i, j)` is `exp (L(i, j) − rowMax L i) / ∑ₖ exp (L(i, k) − rowMax L i)`.
  The literals `0` and `−∞` are kept as the float words the programs print.
-/
import Idealize.ShloMosaic.PureOps.Ideal
import Idealize.ShloMosaic.Lib.ValueIdx

noncomputable section

namespace Cert.Layers

open Idealize.ShloMosaic Idealize.ShloMosaic.ValueIdx

/-- The float word of `0.0`, read on the extended reals. -/
abbrev zeroW : EReal := Ideal.ofBits .f32 0x00000000#32
/-- The float word of `−∞`, read on the extended reals. -/
abbrev ninfW : EReal := Ideal.ofBits .f32 0xFF800000#32

variable {M K N : Nat}

/-- The matrix product: entry `(i, j)` is `∑ₖ H(i, k) · W(k, j)`. -/
def product (H : (⟨2, ![M, K]⟩ : Shape).Idx → EReal) (W : (⟨2, ![K, N]⟩ : Shape).Idx → EReal) :
    (⟨2, ![M, N]⟩ : Shape).Idx → EReal :=
  fun i => ∑ k : Fin K, H (ix2 (i 0) k) * W (ix2 k (i 1))

/-- A table's rows each scaled by the row's weight: entry `(i, j)` is `T(i, j) · d(i, 0)`. -/
def scaleRows (T : (⟨2, ![M, N]⟩ : Shape).Idx → EReal) (d : (⟨2, ![M, 1]⟩ : Shape).Idx → EReal) :
    (⟨2, ![M, N]⟩ : Shape).Idx → EReal :=
  fun i => T i * d (ix2 (i 0) (0 : Fin 1))

/-- A layer's activation: `max (A(i, k) · d(i, 0) + b(0, k), 0)`. -/
def hidden (A : (⟨2, ![M, K]⟩ : Shape).Idx → EReal) (d : (⟨2, ![M, 1]⟩ : Shape).Idx → EReal)
    (b : (⟨2, ![1, K]⟩ : Shape).Idx → EReal) : (⟨2, ![M, K]⟩ : Shape).Idx → EReal :=
  fun i => max (A i * d (ix2 (i 0) (0 : Fin 1)) + b (ix2 (0 : Fin 1) (i 1))) zeroW

/-- A table plus a row repeated over its rows: entry `(i, j)` is `T(i, j) + b(0, j)`. -/
def addRow (T : (⟨2, ![M, N]⟩ : Shape).Idx → EReal) (b : (⟨2, ![1, N]⟩ : Shape).Idx → EReal) :
    (⟨2, ![M, N]⟩ : Shape).Idx → EReal :=
  fun i => T i + b (ix2 (0 : Fin 1) (i 1))

/-- The maximum of row `p`. -/
def rowMax (L : (⟨2, ![M, N]⟩ : Shape).Idx → EReal) (p : Fin M) : EReal :=
  max ninfW ((Finset.univ : Finset (Fin N)).fold max ninfW fun k => L (ix2 p k))

/-- The softmax of each row. -/
def softmaxRows (L : (⟨2, ![M, N]⟩ : Shape).Idx → EReal) : (⟨2, ![M, N]⟩ : Shape).Idx → EReal :=
  fun i => Ideal.div (Ideal.exp (L i - rowMax L (i 0))) (∑ k : Fin N, Ideal.exp (L (ix2 (i 0) k) - rowMax L (i 0)))

/-! ## The definitions at an entry -/

theorem hidden_apply (A : (⟨2, ![M, K]⟩ : Shape).Idx → EReal) (d : (⟨2, ![M, 1]⟩ : Shape).Idx → EReal)
    (b : (⟨2, ![1, K]⟩ : Shape).Idx → EReal) (p : Fin M) (k : Fin K) :
    hidden A d b (ix2 p k) = max (A (ix2 p k) * d (ix2 p (0 : Fin 1)) + b (ix2 (0 : Fin 1) k)) zeroW := rfl

theorem addRow_apply (T : (⟨2, ![M, N]⟩ : Shape).Idx → EReal) (b : (⟨2, ![1, N]⟩ : Shape).Idx → EReal) (p : Fin M) (q : Fin N) :
    addRow T b (ix2 p q) = T (ix2 p q) + b (ix2 (0 : Fin 1) q) := rfl

theorem softmaxRows_apply (L : (⟨2, ![M, N]⟩ : Shape).Idx → EReal) (p : Fin M) (q : Fin N) :
    softmaxRows L (ix2 p q)
      = Ideal.div (Ideal.exp (L (ix2 p q) - rowMax L p)) (∑ k : Fin N, Ideal.exp (L (ix2 p k) - rowMax L p)) := rfl

/-! ## Each entry reads only its own row (and column): the congruences that carry a block's entry to the table's -/

variable {M' : Nat}

theorem product_congr (H : (⟨2, ![M, K]⟩ : Shape).Idx → EReal) (H' : (⟨2, ![M', K]⟩ : Shape).Idx → EReal)
    (W W' : (⟨2, ![K, N]⟩ : Shape).Idx → EReal) (p : Fin M) (p' : Fin M') (q q' : Fin N)
    (hH : ∀ k : Fin K, H (ix2 p k) = H' (ix2 p' k)) (hW : ∀ k : Fin K, W (ix2 k q) = W' (ix2 k q')) :
    product H W (ix2 p q) = product H' W' (ix2 p' q') := by
  show ∑ k : Fin K, H (ix2 p k) * W (ix2 k q) = ∑ k : Fin K, H' (ix2 p' k) * W' (ix2 k q')
  exact Finset.sum_congr rfl fun k _ => by rw [hH k, hW k]

theorem scaleRows_congr (T : (⟨2, ![M, N]⟩ : Shape).Idx → EReal) (T' : (⟨2, ![M', N]⟩ : Shape).Idx → EReal)
    (d : (⟨2, ![M, 1]⟩ : Shape).Idx → EReal) (d' : (⟨2, ![M', 1]⟩ : Shape).Idx → EReal) (p : Fin M) (p' : Fin M') (q q' : Fin N)
    (hT : T (ix2 p q) = T' (ix2 p' q')) (hd : d (ix2 p (0 : Fin 1)) = d' (ix2 p' (0 : Fin 1))) :
    scaleRows T d (ix2 p q) = scaleRows T' d' (ix2 p' q') := by
  show T (ix2 p q) * d (ix2 p (0 : Fin 1)) = T' (ix2 p' q') * d' (ix2 p' (0 : Fin 1))
  rw [hT, hd]

theorem hidden_congr (A : (⟨2, ![M, K]⟩ : Shape).Idx → EReal) (A' : (⟨2, ![M', K]⟩ : Shape).Idx → EReal)
    (d : (⟨2, ![M, 1]⟩ : Shape).Idx → EReal) (d' : (⟨2, ![M', 1]⟩ : Shape).Idx → EReal)
    (b b' : (⟨2, ![1, K]⟩ : Shape).Idx → EReal) (p : Fin M) (p' : Fin M') (k : Fin K)
    (hA : A (ix2 p k) = A' (ix2 p' k)) (hd : d (ix2 p (0 : Fin 1)) = d' (ix2 p' (0 : Fin 1)))
    (hb : b (ix2 (0 : Fin 1) k) = b' (ix2 (0 : Fin 1) k)) :
    hidden A d b (ix2 p k) = hidden A' d' b' (ix2 p' k) := by
  show max (A (ix2 p k) * d (ix2 p (0 : Fin 1)) + b (ix2 (0 : Fin 1) k)) zeroW
    = max (A' (ix2 p' k) * d' (ix2 p' (0 : Fin 1)) + b' (ix2 (0 : Fin 1) k)) zeroW
  rw [hA, hd, hb]

theorem addRow_congr (T : (⟨2, ![M, N]⟩ : Shape).Idx → EReal) (T' : (⟨2, ![M', N]⟩ : Shape).Idx → EReal)
    (b b' : (⟨2, ![1, N]⟩ : Shape).Idx → EReal) (p : Fin M) (p' : Fin M') (q : Fin N)
    (hT : T (ix2 p q) = T' (ix2 p' q)) (hb : b (ix2 (0 : Fin 1) q) = b' (ix2 (0 : Fin 1) q)) :
    addRow T b (ix2 p q) = addRow T' b' (ix2 p' q) := by
  show T (ix2 p q) + b (ix2 (0 : Fin 1) q) = T' (ix2 p' q) + b' (ix2 (0 : Fin 1) q)
  rw [hT, hb]

/-- The softmax of a row reads only that row. -/
theorem softmaxRows_congr (L : (⟨2, ![M, N]⟩ : Shape).Idx → EReal) (L' : (⟨2, ![M', N]⟩ : Shape).Idx → EReal)
    (p : Fin M) (p' : Fin M') (q : Fin N) (hrow : ∀ k : Fin N, L (ix2 p k) = L' (ix2 p' k)) :
    softmaxRows L (ix2 p q) = softmaxRows L' (ix2 p' q) := by
  have hmax : rowMax L p = rowMax L' p' := by unfold rowMax; simp only [hrow]
  show Ideal.div (Ideal.exp (L (ix2 p q) - rowMax L p)) (∑ k : Fin N, Ideal.exp (L (ix2 p k) - rowMax L p))
    = Ideal.div (Ideal.exp (L' (ix2 p' q) - rowMax L' p')) (∑ k : Fin N, Ideal.exp (L' (ix2 p' k) - rowMax L' p'))
  rw [hmax]; simp only [hrow]

end Cert.Layers

end
-- ==== Proof.Region0.lean ====
/-
  REGION 0: the node features times the first weight matrix, each node's row scaled by the node's weight.

  The grid has 20 points; point `t` takes rows 5000·t … 5000·t + 4999 of the feature table `X` ([100000, 128]) and of
  the weight column `d` ([100000, 1]), and the whole matrix `W` ([128, 128]), and writes back rows 5000·t … of the
  result.  At an entry `(p, q)` of a block the body leaves `(∑ₖ x(p, k) · w(k, q)) · d(p, 0)`: the matrix product into
  a zero accumulator, times the row's weight (the changes of float format are the identity on the extended reals).
  The 20 blocks tile the result, so after the region the result array is `scaleRows (product X W) d`.
  Everything is stated for ANY contents `V` of the buffers at the region's entry.
-/
import proofs.«169769_j73504070303824_2_alg».proof.Proof.Gen.KernelIdeal.Frame
import proofs.«169769_j73504070303824_2_alg».proof.Proof.LibPlainDot
import proofs.«169769_j73504070303824_2_alg».proof.Proof.LibColRow
import proofs.«169769_j73504070303824_2_alg».proof.Proof.Layers
import Idealize.ShloMosaic.Lib.ValueIdx
import Idealize.ShloMosaic.Lib.Pipeline.Value
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Layers

theorem hz : (![0, 0] : Fin 2 → Nat) = fun _ => 0 := funext fun a => by fin_cases a <;> rfl

/-- The body's stored value at entry `(p, q)` of a block: the product's entry times the row's weight. -/
theorem payload_apply (x0 : Vec Ideal S5000x128 .f32) (x2 : Vec Ideal S128x128 .f32) (x1 : Vec Ideal S5000x1 .f32)
    (p : Fin 5000) (q : Fin 128) :
    k0_pay1 (F := Ideal) x0 x2 x1 (ix2 p q) = scaleRows (product x0 x2) x1 (ix2 p q) := by
  unfold k0_pay1
  rw [truncf_apply, mulf_apply, Cert.LibColRow.bcastTo_col_apply, shapeCast_self]
  exact congrArg (· * x1 (ix2 p (0 : Fin 1))) (Cert.LibPlainDot.matmul_zero_apply dot_S5000x128_S128x128_S5000x128_1_0_0_1_n_n_wf none
    (truncf .bf16 x0 bitsLt_bf16_f32) (truncf .bf16 x2 bitsLt_bf16_f32) p q)

/-- The printed index maps over the grid: the row blocks move together, the small operands stay, the columns are whole. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 19 :=
  (by decide +kernel : ∀ t : Fin grid0.N, _)

/-- Every row block is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

variable (V : (c : Dev nD) → (b : Ref sig .tc) → Buf (Elt Ideal) ((c : Thread nD τ).loc b))

/-- WHAT POINT `t` WRITES BACK is block `t` of the result function of the arrays as the region finds them. -/
theorem flushed_eq (c : Dev nD) (t : Fin cfg0.N) :
    (dat0 (F := Ideal) V c).flushed 3 t
      = ((cfg0.win 3).blk t).view.read (Elt Ideal) (scaleRows (product (V c main_arg0) (V c main_arg2)) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  refine (payload_apply _ _ _ p q).trans ?_
  have h0 : ∀ k : Fin 128, ((cfg0.win 0).blk t).view.emb (ix2 p k) = ix2 ((((cfg0.win 3).blk t).view.emb (ix2 p q)) 0) k := by
    intro k; funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h2 : ∀ k : Fin 128, ((cfg0.win 2).blk t).view.emb (ix2 k q) = ix2 k ((((cfg0.win 3).blk t).view.emb (ix2 p q)) 1) := by
    intro k; funext a; apply Fin.ext
    match a with
    | ⟨0, _⟩ => show win0_2.index t (0 : Fin 2) * 128 + 1 * k.val = k.val; omega
    | ⟨1, _⟩ => show win0_2.index t (1 : Fin 2) * 128 + 1 * q.val = win0_3.index t (1 : Fin 2) * 128 + 1 * q.val; omega
  have h1 : ((cfg0.win 1).blk t).view.emb (ix2 p (0 : Fin 1)) = ix2 ((((cfg0.win 3).blk t).view.emb (ix2 p q)) 0) (0 : Fin 1) := by
    funext a; apply Fin.ext
    match a with
    | ⟨0, _⟩ => show win0_1.index t (0 : Fin 2) * 5000 + 1 * p.val = win0_3.index t (0 : Fin 2) * 5000 + 1 * p.val; omega
    | ⟨1, _⟩ => show win0_1.index t (1 : Fin 2) * 1 + 1 * 0 = 0; omega
  have hb0 : ∀ k : Fin 128, iblk0 V c 0 t (ix2 p k) = V c main_arg0 (ix2 ((((cfg0.win 3).blk t).view.emb (ix2 p q)) 0) k) := fun k => congrArg (V c main_arg0) (h0 k)
  have hb2 : ∀ k : Fin 128, iblk0 V c 2 t (ix2 k q) = V c main_arg2 (ix2 k ((((cfg0.win 3).blk t).view.emb (ix2 p q)) 1)) := fun k => congrArg (V c main_arg2) (h2 k)
  have hb1 : iblk0 V c 1 t (ix2 p (0 : Fin 1)) = V c main_v15 (ix2 ((((cfg0.win 3).blk t).view.emb (ix2 p q)) 0) (0 : Fin 1)) := congrArg (V c main_v15) (h1)
  refine Eq.trans ?_ (congrArg (scaleRows (product (V c main_arg0) (V c main_arg2)) (V c main_v15)) (eq_ix2 (((cfg0.win 3).blk t).view.emb (ix2 p q))).symm)
  exact scaleRows_congr _ _ _ _ p ((((cfg0.win 3).blk t).view.emb (ix2 p q)) 0) q ((((cfg0.win 3).blk t).view.emb (ix2 p q)) 1) (product_congr _ _ _ _ p ((((cfg0.win 3).blk t).view.emb (ix2 p q)) 0) q ((((cfg0.win 3).blk t).view.emb (ix2 p q)) 1) hb0 hb2) hb1

/-- An index of the result is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Every entry of the result lies in the block of the point that takes its row. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE RESULT ARRAY after the region: the result function of the arrays as the region finds them. -/
theorem final (c : Dev nD) :
    (dat0 (F := Ideal) V c).arrAt 3 cfg0.N = scaleRows (product (V c main_arg0) (V c main_arg2)) (V c main_v15) :=
  (dat0 (F := Ideal) V c).arrAt_eq_of_cover 3 _ (fun t _ => flushed_eq V c t) cover

end Cert.KernelIdeal.Region0

end
-- ==== Proof.Region1.lean ====
/-
  REGION 1: the first layer's activation times the second weight matrix, each node's row scaled by the node's weight.

  Point `t` of the 20 takes rows 5000·t … of the raw neighbourhood sums `A` ([100000, 128]) and of the weight column `d`,
  the bias row `b` ([1, 128]) and the matrix `W` ([128, 128]).  At an entry `(p, q)` of a block the body leaves
  `(∑ₖ max (a(p, k) · d(p, 0) + b(0, k), 0) · w(k, q)) · d(p, 0)`.  The 20 blocks tile the result, so after the region
  the result array is `scaleRows (product (hidden A d b) W) d`.  Stated for ANY contents `V` at the region's entry.
-/
import proofs.«169769_j73504070303824_2_alg».proof.Proof.Gen.KernelIdeal.Frame
import proofs.«169769_j73504070303824_2_alg».proof.Proof.LibPlainDot
import proofs.«169769_j73504070303824_2_alg».proof.Proof.LibColRow
import proofs.«169769_j73504070303824_2_alg».proof.Proof.Layers
import Idealize.ShloMosaic.Lib.ValueIdx
import Idealize.ShloMosaic.Lib.Pipeline.Value
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Layers

theorem hz : (![0, 0] : Fin 2 → Nat) = fun _ => 0 := funext fun a => by fin_cases a <;> rfl

/-- The body's stored value at entry `(p, q)` of a block. -/
theorem payload_apply (x0 : Vec Ideal S5000x128 .f32) (x1 : Vec Ideal S5000x1 .f32) (x2 : Vec Ideal S1x128 .f32)
    (x3 : Vec Ideal S128x128 .f32) (x4 : Vec Ideal S5000x1 .f32) (p : Fin 5000) (q : Fin 128) :
    k1_pay1 (F := Ideal) x0 x1 x2 x3 x4 (ix2 p q) = scaleRows (product (hidden x0 x1 x2) x3) x4 (ix2 p q) := by
  unfold k1_pay1
  simp only [shapeCast_self]
  rw [truncf_apply, mulf_apply, Cert.LibColRow.bcastTo_col_apply]
  refine congrArg (· * x4 (ix2 p (0 : Fin 1))) ?_
  refine (Cert.LibPlainDot.matmul_zero_apply dot_S5000x128_S128x128_S5000x128_1_0_0_1_n_n_wf none _ _ p q).trans ?_
  show _ = ∑ k : Fin 128, hidden x0 x1 x2 (ix2 p k) * x3 (ix2 k q)
  refine Finset.sum_congr rfl fun k _ => ?_
  rw [truncf_apply, truncf_apply, maximumf_apply, addf_apply, mulf_apply, Cert.LibColRow.bcastTo_col_apply,
    Cert.LibColRow.bcastTo_row_apply, broadcast_apply]
  rfl

/-- The printed index maps over the grid: the row blocks move together, the small operands stay, the columns are whole. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 19 :=
  (by decide +kernel : ∀ t : Fin grid1.N, _)

/-- Every row block is some point's. -/
theorem idx_onto : ∀ q0 : Fin 20, ∃ t : Fin cfg1.N, win1_4.index t = ![q0.val, 0] :=
  (by decide +kernel : ∀ q0 : Fin 20, ∃ t : Fin grid1.N, win1_4.index t = ![q0.val, 0])

variable (V : (c : Dev nD) → (b : Ref sig .tc) → Buf (Elt Ideal) ((c : Thread nD τ).loc b))

/-- WHAT POINT `t` WRITES BACK is block `t` of the result function of the arrays as the region finds them. -/
theorem flushed_eq (c : Dev nD) (t : Fin cfg1.N) :
    (dat1 (F := Ideal) V c).flushed 4 t
      = ((cfg1.win 4).blk t).view.read (Elt Ideal) (scaleRows (product (hidden (V c main_v27) (V c main_v15) (V c main_v28)) (V c main_arg4)) (V c main_v15)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S5000x1) hz, View.ld_unit_zero (S := S1x128) hz]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  refine (payload_apply _ _ _ _ _ p q).trans ?_
  have h0 : ∀ k : Fin 128, ((cfg1.win 0).blk t).view.emb (ix2 p k) = ix2 ((((cfg1.win 4).blk t).view.emb (ix2 p q)) 0) k := by
    intro k; funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * k.val = k.val; omega
  have h1 : ((cfg1.win 1).blk t).view.emb (ix2 p (0 : Fin 1)) = ix2 ((((cfg1.win 4).blk t).view.emb (ix2 p q)) 0) (0 : Fin 1) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 1 + 1 * 0 = 0; omega
  have h2 : ∀ k : Fin 128, ((cfg1.win 2).blk t).view.emb (ix2 (0 : Fin 1) k) = ix2 (0 : Fin 1) k := by
    intro k; funext a; apply Fin.ext
    match a with
    | ⟨0, _⟩ => show win1_2.index t (0 : Fin 2) * 1 + 1 * 0 = 0; omega
    | ⟨1, _⟩ => show win1_2.index t (1 : Fin 2) * 128 + 1 * k.val = k.val; omega
  have h3 : ∀ k : Fin 128, ((cfg1.win 3).blk t).view.emb (ix2 k q) = ix2 k ((((cfg1.win 4).blk t).view.emb (ix2 p q)) 1) := by
    intro k; funext a; apply Fin.ext
    match a with
    | ⟨0, _⟩ => show win1_3.index t (0 : Fin 2) * 128 + 1 * k.val = k.val; omega
    | ⟨1, _⟩ => show win1_3.index t (1 : Fin 2) * 128 + 1 * q.val = win1_4.index t (1 : Fin 2) * 128 + 1 * q.val; omega
  have hb0 : ∀ k : Fin 128, iblk1 V c 0 t (ix2 p k) = V c main_v27 (ix2 ((((cfg1.win 4).blk t).view.emb (ix2 p q)) 0) k) := fun k => congrArg (V c main_v27) (h0 k)
  have hb1 : iblk1 V c 1 t (ix2 p (0 : Fin 1)) = V c main_v15 (ix2 ((((cfg1.win 4).blk t).view.emb (ix2 p q)) 0) (0 : Fin 1)) := congrArg (V c main_v15) (h1)
  have hb2 : ∀ k : Fin 128, iblk1 V c 2 t (ix2 (0 : Fin 1) k) = V c main_v28 (ix2 (0 : Fin 1) k) := fun k => congrArg (V c main_v28) (h2 k)
  have hb3 : ∀ k : Fin 128, iblk1 V c 3 t (ix2 k q) = V c main_arg4 (ix2 k ((((cfg1.win 4).blk t).view.emb (ix2 p q)) 1)) := fun k => congrArg (V c main_arg4) (h3 k)
  refine Eq.trans ?_ (congrArg (scaleRows (product (hidden (V c main_v27) (V c main_v15) (V c main_v28)) (V c main_arg4)) (V c main_v15)) (eq_ix2 (((cfg1.win 4).blk t).view.emb (ix2 p q))).symm)
  exact scaleRows_congr _ _ _ _ p ((((cfg1.win 4).blk t).view.emb (ix2 p q)) 0) q ((((cfg1.win 4).blk t).view.emb (ix2 p q)) 1) (product_congr _ _ _ _ p ((((cfg1.win 4).blk t).view.emb (ix2 p q)) 0) q ((((cfg1.win 4).blk t).view.emb (ix2 p q)) 1)
    (fun k => hidden_congr _ _ _ _ _ _ p ((((cfg1.win 4).blk t).view.emb (ix2 p q)) 0) k (hb0 k) hb1 (hb2 k)) hb3) hb1

/-- An index of the result is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v29).slice (win1_4.rect t)).set ↔ _
  rw [View.set_slice_whole, Rect.mem_set_unit]
  exact Iff.rfl

/-- Every entry of the result lies in the block of the point that takes its row. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE RESULT ARRAY after the region: the result function of the arrays as the region finds them. -/
theorem final (c : Dev nD) :
    (dat1 (F := Ideal) V c).arrAt 4 cfg1.N = scaleRows (product (hidden (V c main_v27) (V c main_v15) (V c main_v28)) (V c main_arg4)) (V c main_v15) :=
  (dat1 (F := Ideal) V c).arrAt_eq_of_cover 4 _ (fun t _ => flushed_eq V c t) cover

end Cert.KernelIdeal.Region1

end
-- ==== Proof.Region2.lean ====
/-
  REGION 2: the second layer's activation, the output head, and the softmax of each node's row.

  Point `t` of the 20 takes rows 5000·t … of the raw neighbourhood sums `A` ([100000, 128]) and of the weight column `d`,
  the bias row `b` ([1, 128]), the output matrix `W` ([128, 8]) and the output bias row `b'` ([1, 8]).  At an entry `(p, q)`
  of a block the body leaves the softmax over row `p` of the logits `∑ₖ max (a(p, k) · d(p, 0) + b(0, k), 0) · w(k, j) + b'(0, j)`.
  The 20 blocks tile the result, so after the region the result array is
  `softmaxRows (addRow (product (hidden A d b) W) b')`.  Stated for ANY contents `V` at the region's entry.
-/
import proofs.«169769_j73504070303824_2_alg».proof.Proof.Gen.KernelIdeal.Frame
import proofs.«169769_j73504070303824_2_alg».proof.Proof.LibPlainDot
import proofs.«169769_j73504070303824_2_alg».proof.Proof.LibColRow
import proofs.«169769_j73504070303824_2_alg».proof.Proof.Layers
import Idealize.ShloMosaic.Lib.ValueIdx
import Idealize.ShloMosaic.Lib.Pipeline.Value
import Idealize.ShloMosaic.PureOps.Ideal.Laws

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Layers

theorem hz : (![0, 0] : Fin 2 → Nat) = fun _ => 0 := funext fun a => by fin_cases a <;> rfl

/-- The block's logits, in the body's own operations: the activation `max (a · d + b, 0)` times the output matrix into a
    zero accumulator, plus the output bias row. -/
def blockLogits (v0 : Vec Ideal S5000x128 .f32) (v2 : Vec Ideal S5000x1 .f32) (v6 : Vec Ideal S1x128 .f32)
    (v13 : Vec Ideal S128x8 .f32) (v16 : Vec Ideal S1x8 .f32) : FVec Ideal S5000x8 .f32 :=
  have v1 : FVec Ideal S5000x128 .f32 := shapeCast S5000x128 v0 shapeCasts_S5000x128_S5000x128
  have v3 : FVec Ideal S5000x1 .f32 := shapeCast S5000x1 v2 shapeCasts_S5000x1_S5000x1
  have v4 : FVec Ideal S5000x128 .f32 := broadcastTo S5000x128 v3 broadcasts_S5000x1_S5000x128
  have v5 : FVec Ideal S5000x128 .f32 := mulf v1 v4
  have v7 : FVec Ideal S1x128 .f32 := shapeCast S1x128 v6 shapeCasts_S1x128_S1x128
  have v8 : FVec Ideal S5000x128 .f32 := broadcastTo S5000x128 v7 broadcasts_S1x128_S5000x128
  have v9 : FVec Ideal S5000x128 .f32 := addf v5 v8
  have cst : Ideal .f32 := Scalar.ofBits .f32 0x00000000#32
  have v10 : FVec Ideal S5000x128 .f32 := broadcast S5000x128 cst
  have v11 : FVec Ideal S5000x128 .f32 := maximumf v9 v10
  have v12 : FVec Ideal S5000x128 .bf16 := truncf .bf16 v11 bitsLt_bf16_f32
  have v14 : FVec Ideal S128x8 .bf16 := truncf .bf16 v13 bitsLt_bf16_f32
  have cst_7 : FVec Ideal S5000x8 .f32 := constant S5000x8 .f32 0x00000000#32
  have v15 : FVec Ideal S5000x8 .f32 := matmul dot_S5000x128_S128x8_S5000x8_1_0_0_1_n_n none v12 v14 cst_7
  have v17 : FVec Ideal S1x8 .f32 := shapeCast S1x8 v16 shapeCasts_S1x8_S1x8
  have v18 : FVec Ideal S5000x8 .f32 := broadcastTo S5000x8 v17 broadcasts_S1x8_S5000x8
  have v19 : FVec Ideal S5000x8 .f32 := addf v15 v18
  v19

/-- The body's softmax of a block of logits: the row maximum (a lane reduction from `−∞`, once more against `−∞`), the
    exponentials of the differences, their row sums (a lane reduction from `0`), the quotient. -/
def blockSoftmax (v19 : FVec Ideal S5000x8 .f32) : FVec Ideal S5000x8 .f32 :=
  have v20 : FVec Ideal S5000 .f32 := multiReduction .maximumf [1] S5000 v19 0xFF800000#32 reduces_S5000x8_S5000 (.inl rfl) rfl
  have cst_11 : Ideal .f32 := Scalar.ofBits .f32 0xFF800000#32
  have v21 : FVec Ideal S5000 .f32 := broadcast S5000 cst_11
  have v22 : FVec Ideal S5000 .f32 := maximumf v21 v20
  have v23 : FVec Ideal S5000x1 .f32 := shapeCast S5000x1 v22 shapeCasts_S5000_S5000x1
  have v24 : FVec Ideal S5000x8 .f32 := broadcastTo S5000x8 v23 broadcasts_S5000x1_S5000x8
  have v25 : FVec Ideal S5000x8 .f32 := subf v19 v24
  have v26 : FVec Ideal S5000x8 .f32 := exp v25
  have v27 : FVec Ideal S5000 .f32 := multiReduction .add [1] S5000 v26 0x00000000#32 reduces_S5000x8_S5000 (.inl rfl) rfl
  have v28 : FVec Ideal S5000x1 .f32 := shapeCast S5000x1 v27 shapeCasts_S5000_S5000x1
  have v29 : FVec Ideal S5000x8 .f32 := broadcastTo S5000x8 v28 broadcasts_S5000x1_S5000x8
  have v30 : FVec Ideal S5000x8 .f32 := divf v26 v29
  v30

/-- The body's stored value is the softmax of its logits. -/
theorem payload_split (v0 : Vec Ideal S5000x128 .f32) (v2 : Vec Ideal S5000x1 .f32) (v6 : Vec Ideal S1x128 .f32)
    (v13 : Vec Ideal S128x8 .f32) (v16 : Vec Ideal S1x8 .f32) :
    k2_pay1 (F := Ideal) v0 v2 v6 v13 v16 = blockSoftmax (blockLogits v0 v2 v6 v13 v16) := rfl

/-- The block's logits at `(p, j)`. -/
theorem blockLogits_apply (x0 : Vec Ideal S5000x128 .f32) (x1 : Vec Ideal S5000x1 .f32) (x2 : Vec Ideal S1x128 .f32)
    (x3 : Vec Ideal S128x8 .f32) (x4 : Vec Ideal S1x8 .f32) (p : Fin 5000) (j : Fin 8) :
    blockLogits x0 x1 x2 x3 x4 (ix2 p j) = addRow (product (hidden x0 x1 x2) x3) x4 (ix2 p j) := by
  unfold blockLogits
  simp only [shapeCast_self]
  rw [addf_apply, Cert.LibColRow.bcastTo_row_apply]
  refine congrArg (· + x4 (ix2 (0 : Fin 1) j)) ?_
  refine (Cert.LibPlainDot.matmul_zero_apply dot_S5000x128_S128x8_S5000x8_1_0_0_1_n_n_wf none _ _ p j).trans ?_
  show _ = ∑ k : Fin 128, hidden x0 x1 x2 (ix2 p k) * x3 (ix2 k j)
  refine Finset.sum_congr rfl fun k _ => ?_
  rw [truncf_apply, truncf_apply, maximumf_apply, addf_apply, mulf_apply, Cert.LibColRow.bcastTo_col_apply,
    Cert.LibColRow.bcastTo_row_apply, broadcast_apply]
  rfl

/-- The lane reductions of a `[5000, 8]` block read row `p`: the index with the lane put back is `(p, k)`. -/
theorem lift_row (p : Fin 5000) (k : Fin 8) : reduces_S5000x8_S5000.lift (ix1 p) k = ix2 p k := by
  funext a; apply Fin.ext
  match a with
  | ⟨0, _⟩ => rfl
  | ⟨1, _⟩ => rfl

/-- The body's row maximum at row `r`: a lane reduction from `−∞`, once more against `−∞`. -/
theorem rowMax_read (L : FVec Ideal S5000x8 .f32) (r : Fin 5000) :
    maximumf (broadcast S5000 (Scalar.ofBits (F := Ideal) .f32 0xFF800000#32))
      (multiReduction .maximumf [1] S5000 L 0xFF800000#32 reduces_S5000x8_S5000 (.inl rfl) rfl) (ix1 r) = rowMax L r := by
  rw [maximumf_apply, broadcast_apply]
  refine congrArg (max _) ?_
  refine (Ideal.multiReduction_maximumf_single L 0xFF800000#32 reduces_S5000x8_S5000 (.inl rfl) rfl (ix1 r)).trans ?_
  have hrow : (L ∘ reduces_S5000x8_S5000.lift (ix1 r)) = fun k : Fin 8 => L (ix2 r k) :=
    funext fun k => congrArg L (lift_row r k)
  rw [hrow]
  rfl

/-- The exponential of a logit less its row's maximum, in the body's operations, at `(p, k)`. -/
theorem expDiff_read (L : FVec Ideal S5000x8 .f32) (p : Fin 5000) (k : Fin 8) :
    exp (subf L (broadcastTo S5000x8 (shapeCast S5000x1 (maximumf (broadcast S5000 (Scalar.ofBits (F := Ideal) .f32 0xFF800000#32))
      (multiReduction .maximumf [1] S5000 L 0xFF800000#32 reduces_S5000x8_S5000 (.inl rfl) rfl)) shapeCasts_S5000_S5000x1) broadcasts_S5000x1_S5000x8)) (ix2 p k)
      = Ideal.exp (L (ix2 p k) - rowMax L p) := by
  show Ideal.exp (subf L _ (ix2 p k)) = _
  rw [subf_apply, Cert.LibColRow.bcastTo_col_apply, Cert.LibColRow.shapeCast_col_apply, rowMax_read]

/-- The body's softmax at `(p, q)`: the softmax of row `p` of the logits. -/
theorem blockSoftmax_apply (L : FVec Ideal S5000x8 .f32) (p : Fin 5000) (q : Fin 8) :
    blockSoftmax L (ix2 p q) = softmaxRows L (ix2 p q) := by
  unfold blockSoftmax
  rw [divf_apply, Cert.LibColRow.bcastTo_col_apply, Cert.LibColRow.shapeCast_col_apply]
  show Ideal.div _ _ = Ideal.div (Ideal.exp (L (ix2 p q) - rowMax L p)) (∑ k : Fin 8, Ideal.exp (L (ix2 p k) - rowMax L p))
  refine congrArg₂ Ideal.div (expDiff_read L p q) ?_
  refine (Ideal.multiReduction_add_single _ 0x00000000#32 reduces_S5000x8_S5000 (.inl rfl) rfl (ix1 p)).trans ?_
  refine Finset.sum_congr rfl fun k _ => ?_
  exact (congrArg _ (lift_row p k)).trans (expDiff_read L p k)

/-- The body's stored value at entry `(p, q)` of a block. -/
theorem payload_apply (x0 : Vec Ideal S5000x128 .f32) (x1 : Vec Ideal S5000x1 .f32) (x2 : Vec Ideal S1x128 .f32)
    (x3 : Vec Ideal S128x8 .f32) (x4 : Vec Ideal S1x8 .f32) (p : Fin 5000) (q : Fin 8) :
    k2_pay1 (F := Ideal) x0 x1 x2 x3 x4 (ix2 p q) = softmaxRows (addRow (product (hidden x0 x1 x2) x3) x4) (ix2 p q) := by
  rw [payload_split, blockSoftmax_apply]
  exact softmaxRows_congr _ _ p p q fun k => blockLogits_apply x0 x1 x2 x3 x4 p k

/-- The printed index maps over the grid: the row blocks move together, the small operands stay, the columns are whole. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 19 :=
  (by decide +kernel : ∀ t : Fin grid2.N, _)

/-- Every row block is some point's. -/
theorem idx_onto : ∀ q0 : Fin 20, ∃ t : Fin cfg2.N, win2_5.index t = ![q0.val, 0] :=
  (by decide +kernel : ∀ q0 : Fin 20, ∃ t : Fin grid2.N, win2_5.index t = ![q0.val, 0])

variable (V : (c : Dev nD) → (b : Ref sig .tc) → Buf (Elt Ideal) ((c : Thread nD τ).loc b))

/-- WHAT POINT `t` WRITES BACK is block `t` of the result function of the arrays as the region finds them. -/
theorem flushed_eq (c : Dev nD) (t : Fin cfg2.N) :
    (dat2 (F := Ideal) V c).flushed 5 t
      = ((cfg2.win 5).blk t).view.read (Elt Ideal) (softmaxRows (addRow (product (hidden (V c main_v40) (V c main_v15) (V c main_v41)) (V c main_arg6)) (V c main_v42))) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x8) hz, View.ld_unit_zero (S := S5000x1) hz, View.ld_unit_zero (S := S1x128) hz, View.ld_unit_zero (S := S1x8) hz]
  obtain ⟨e0, e1, e2, e3, e4, e5, e6, e7, e8, e9, e10, e11⟩ := idx_facts t
  funext j
  obtain ⟨p, q, rfl⟩ : ∃ (p : Fin 5000) (q : Fin 8), j = ix2 p q := ⟨j 0, j 1, eq_ix2 j⟩
  refine (payload_apply _ _ _ _ _ p q).trans ?_
  have h0 : ∀ k : Fin 128, ((cfg2.win 0).blk t).view.emb (ix2 p k) = ix2 ((((cfg2.win 5).blk t).view.emb (ix2 p q)) 0) k := by
    intro k; funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  have h1 : ((cfg2.win 1).blk t).view.emb (ix2 p (0 : Fin 1)) = ix2 ((((cfg2.win 5).blk t).view.emb (ix2 p q)) 0) (0 : Fin 1) := by
    funext a; apply Fin.ext
    match a with
    | ⟨0, _⟩ => show win2_1.index t (0 : Fin 2) * 5000 + 1 * p.val = win2_5.index t (0 : Fin 2) * 5000 + 1 * p.val; omega
    | ⟨1, _⟩ => show win2_1.index t (1 : Fin 2) * 1 + 1 * 0 = 0; omega
  have h2 : ∀ k : Fin 128, ((cfg2.win 2).blk t).view.emb (ix2 (0 : Fin 1) k) = ix2 (0 : Fin 1) k := by
    intro k; funext a; apply Fin.ext
    match a with
    | ⟨0, _⟩ => show win2_2.index t (0 : Fin 2) * 1 + 1 * 0 = 0; omega
    | ⟨1, _⟩ => show win2_2.index t (1 : Fin 2) * 128 + 1 * k.val = k.val; omega
  have h3 : ∀ (j : Fin 8) (k : Fin 128), ((cfg2.win 3).blk t).view.emb (ix2 k j) = ix2 k j := by
    intro j k; funext a; apply Fin.ext
    match a with
    | ⟨0, _⟩ => show win2_3.index t (0 : Fin 2) * 128 + 1 * k.val = k.val; omega
    | ⟨1, _⟩ => show win2_3.index t (1 : Fin 2) * 8 + 1 * j.val = j.val; omega
  have h4 : ∀ j : Fin 8, ((cfg2.win 4).blk t).view.emb (ix2 (0 : Fin 1) j) = ix2 (0 : Fin 1) j := by
    intro j; funext a; apply Fin.ext
    match a with
    | ⟨0, _⟩ => show win2_4.index t (0 : Fin 2) * 1 + 1 * 0 = 0; omega
    | ⟨1, _⟩ => show win2_4.index t (1 : Fin 2) * 8 + 1 * j.val = j.val; omega
  have hE : (((cfg2.win 5).blk t).view.emb (ix2 p q)) = ix2 ((((cfg2.win 5).blk t).view.emb (ix2 p q)) 0) q := by
    funext a; apply Fin.ext
    match a with
    | ⟨0, _⟩ => rfl
    | ⟨1, _⟩ => show win2_5.index t (1 : Fin 2) * 8 + 1 * q.val = q.val; omega
  have hb0 : ∀ k : Fin 128, iblk2 V c 0 t (ix2 p k) = V c main_v40 (ix2 ((((cfg2.win 5).blk t).view.emb (ix2 p q)) 0) k) := fun k => congrArg (V c main_v40) (h0 k)
  have hb1 : iblk2 V c 1 t (ix2 p (0 : Fin 1)) = V c main_v15 (ix2 ((((cfg2.win 5).blk t).view.emb (ix2 p q)) 0) (0 : Fin 1)) := congrArg (V c main_v15) (h1)
  have hb2 : ∀ k : Fin 128, iblk2 V c 2 t (ix2 (0 : Fin 1) k) = V c main_v41 (ix2 (0 : Fin 1) k) := fun k => congrArg (V c main_v41) (h2 k)
  have hb3 : ∀ (j : Fin 8) (k : Fin 128), iblk2 V c 3 t (ix2 k j) = V c main_arg6 (ix2 k j) := fun j k => congrArg (V c main_arg6) (h3 j k)
  have hb4 : ∀ j : Fin 8, iblk2 V c 4 t (ix2 (0 : Fin 1) j) = V c main_v42 (ix2 (0 : Fin 1) j) := fun j => congrArg (V c main_v42) (h4 j)
  refine Eq.trans ?_ (congrArg (softmaxRows (addRow (product (hidden (V c main_v40) (V c main_v15) (V c main_v41)) (V c main_arg6)) (V c main_v42))) hE.symm)
  exact softmaxRows_congr _ _ p ((((cfg2.win 5).blk t).view.emb (ix2 p q)) 0) q fun j => addRow_congr _ _ _ _ p ((((cfg2.win 5).blk t).view.emb (ix2 p q)) 0) j
    (product_congr _ _ _ _ p ((((cfg2.win 5).blk t).view.emb (ix2 p q)) 0) j j (fun k => hidden_congr _ _ _ _ _ _ p ((((cfg2.win 5).blk t).view.emb (ix2 p q)) 0) k (hb0 k) hb1 (hb2 k)) (hb3 j)) (hb4 j)

/-- An index of the result is in point `t`'s block iff each coordinate is in the block's range on its axis. -/
theorem mem_blk (t : Fin cfg2.N) (i : S100000x8.Idx) :
    i ∈ ((cfg2.win 5).blk t).view.set ↔ ∀ a : Fin 2, win2_5.index t a * S5000x8.size a ≤ (i a).val ∧ (i a).val < win2_5.index t a * S5000x8.size a + S5000x8.size a := by
  show i ∈ ((View.whole main_v43).slice (win2_5.rect t)).set ↔ _
  rw [View.set_slice_whole, Rect.mem_set_unit]
  exact Iff.rfl

/-- Every entry of the result lies in the block of the point that takes its row. -/
theorem cover (i : S100000x8.Idx) : ∃ t : Fin cfg2.N, (cfg2.win 5).flush t = true ∧ i ∈ ((cfg2.win 5).blk t).view.set := by
  have hi0 : (i 0).val < 100000 := (i 0).isLt
  have hi1 : (i 1).val < 8 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 8 ≤ (i 1).val ∧ (i 1).val < win2_5.index t (1 : Fin 2) * 8 + 8; omega

/-- THE RESULT ARRAY after the region: the result function of the arrays as the region finds them. -/
theorem final (c : Dev nD) :
    (dat2 (F := Ideal) V c).arrAt 5 cfg2.N = softmaxRows (addRow (product (hidden (V c main_v40) (V c main_v15) (V c main_v41)) (V c main_arg6)) (V c main_v42)) :=
  (dat2 (F := Ideal) V c).arrAt_eq_of_cover 5 _ (fun t _ => flushed_eq V c t) cover

end Cert.KernelIdeal.Region2

end
-- ==== Proof.HostStages.lean ====
/-
  THE KERNEL'S HOST OPERATIONS, as functions of the arguments.

  Around its three regions the kernel's @main does, on the host:
  • from the edge table `e` ([2, 1600000] words) the source and destination vectors `srcOf e`, `dstOf e`: a row of
    `e` followed by the node numbers 0 … 99999 (one self loop per node), 1700000 words each;
  • the degree of each node, `degOf e`: ones accumulated at the destinations; the node weight `dinvOf e`: the
    inverse square root of the degree where it is positive, zero elsewhere; and the same as a column, `dinvColOf e`;
  • between two regions, `edgeSum T s d`: row `n` of the result is the sum, over the edges whose destination word
    is `n`, of row (source word, wrapped when negative, clamped) of the table `T`.
  Each stretch is read for ANY contents `val` of the buffers before it: the buffers it writes at these functions of
  the buffers it reads, the others unchanged.
-/
import proofs.«169769_j73504070303824_2_alg».proof.Proof.Gen.KernelIdeal.Frame
import Idealize.ShloMosaic.Lib.StableHlo.Run
import Idealize.ShloMosaic.Lib.Tactic
import Idealize.ShloMosaic.PureOps.Ideal

set_option maxRecDepth 16384

noncomputable section

namespace Cert.KernelIdeal.HostStages

open Idealize.ShloMosaic Idealize.ShloMosaic.TcCoe Idealize.SL.Sem Idealize.ShloMosaic.StableHlo Idealize.ShloMosaic.Tactic
open Cert.KernelIdeal Cert.KernelIdeal.Gen

/-- Row `r` of the edge table, followed by the node numbers. -/
def srcOf (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩,
    ⟨S100000, iotaInDim S100000 32 0⟩] concatenates_S1600000_S100000_S1700000_d0

def dstOf (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩,
    ⟨S100000, iotaInDim S100000 32 0⟩] concatenates_S1600000_S100000_S1700000_d0

/-- The degree of each node: ones accumulated at the destinations, from zero. -/
def degOf (e : IVec S2x1600000 32) : FVec Ideal S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dstOf e))
    (broadcastInDim S1700000 ![] bcast_S_S1700000 (constant S_ .f32 0x3F800000#32))

/-- The node weight: the inverse square root of a positive degree, zero elsewhere. -/
def dinvOf (e : IVec S2x1600000 32) : FVec Ideal S100000 .f32 :=
  select (cmpf .ogt (degOf e) (broadcastInDim S100000 ![] bcast_S_S100000 (constant S_ .f32 0x00000000#32)))
    (Host.rsqrt (degOf e)) (broadcastInDim S100000 ![] bcast_S_S100000 (constant S_ .f32 0x00000000#32))

/-- The node weights as a column. -/
def dinvColOf (e : IVec S2x1600000 32) : FVec Ideal S100000x1 .f32 :=
  shapeCast S100000x1 (dinvOf e) shapeCasts_S100000_S100000x1

/-- A row number, wrapped once when negative. -/
def wrap (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- The neighbourhood sums of a table: gather the source rows, accumulate them at the destinations, from zero. -/
def edgeSum (T : FVec Ideal S100000x128 .bf16) (s d : IVec S1700000 32) : FVec Ideal S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (extf .f32 (Host.gather gather_S100000x128_S1700000x1_S1700000x128_1_0_n_n_0_1_1128 T
      (broadcastInDim S1700000x1 ![0] bcast_S1700000_S1700000x1_0 (wrap s))) bitsLt_bf16_f32)

variable (val : Valuation τ sig (Elt Ideal))

/-! ## The first stretch: sources, destinations, degrees -/

theorem first_src : StableHlo.after (hostOps0 (F := Ideal)) val (Proc.devRef .tc main_v3) = srcOf (val (Proc.devRef .tc main_arg1)) := by
  after_results <;> rfl
theorem first_dst : StableHlo.after (hostOps0 (F := Ideal)) val (Proc.devRef .tc main_v6) = dstOf (val (Proc.devRef .tc main_arg1)) := by
  after_results <;> rfl
theorem first_pos : StableHlo.after (hostOps0 (F := Ideal)) val (Proc.devRef .tc main_v12)
    = cmpf .ogt (degOf (val (Proc.devRef .tc main_arg1))) (broadcastInDim S100000 ![] bcast_S_S100000 (constant S_ .f32 0x00000000#32)) := by
  after_results <;> rfl
theorem first_rsqrt : StableHlo.after (hostOps0 (F := Ideal)) val (Proc.devRef .tc main_v13) = Host.rsqrt (degOf (val (Proc.devRef .tc main_arg1))) := by
  after_results <;> rfl
theorem first_zero : StableHlo.after (hostOps0 (F := Ideal)) val (Proc.devRef .tc main_cst_2) = constant (F := Ideal) S_ .f32 0x00000000#32 := by
  after_results <;> rfl

/-! ## The second stretch: the node weights -/

theorem second_dinv : StableHlo.after (hostOps0_1 (F := Ideal)) val (Proc.devRef .tc main_v14)
    = select (val (Proc.devRef .tc main_v12)) (val (Proc.devRef .tc main_v13))
        (broadcastInDim S100000 ![] bcast_S_S100000 (val (Proc.devRef .tc main_cst_2))) := by
  after_results <;> rfl

/-! ## The third stretch: the weights as a column -/

theorem third_col : StableHlo.after (hostOps0_2 (F := Ideal)) val (Proc.devRef .tc main_v15)
    = shapeCast S100000x1 (val (Proc.devRef .tc main_v14)) shapeCasts_S100000_S100000x1 := by
  after_results <;> rfl

/-! ## Between the regions -/

theorem fourth_sum : StableHlo.after (hostOps1 (F := Ideal)) val (Proc.devRef .tc main_v27)
    = edgeSum (val (Proc.devRef .tc main_v16)) (val (Proc.devRef .tc main_v3)) (val (Proc.devRef .tc main_v6)) := by
  after_results <;> rfl
theorem fourth_bias : StableHlo.after (hostOps1 (F := Ideal)) val (Proc.devRef .tc main_v28)
    = shapeCast S1x128 (val (Proc.devRef .tc main_arg3)) shapeCasts_S128_S1x128 := by
  after_results <;> rfl

theorem fifth_sum : StableHlo.after (hostOps2 (F := Ideal)) val (Proc.devRef .tc main_v40)
    = edgeSum (val (Proc.devRef .tc main_v29)) (val (Proc.devRef .tc main_v3)) (val (Proc.devRef .tc main_v6)) := by
  after_results <;> rfl
theorem fifth_bias : StableHlo.after (hostOps2 (F := Ideal)) val (Proc.devRef .tc main_v41)
    = shapeCast S1x128 (val (Proc.devRef .tc main_arg5)) shapeCasts_S128_S1x128 := by
  after_results <;> rfl
theorem fifth_obias : StableHlo.after (hostOps2 (F := Ideal)) val (Proc.devRef .tc main_v42)
    = shapeCast S1x8 (val (Proc.devRef .tc main_arg7)) shapeCasts_S8_S1x8 := by
  after_results <;> rfl

end Cert.KernelIdeal.HostStages

end
-- ==== Proof.KernelValue.lean ====
/-
  THE KERNEL'S RESULT AS ONE FUNCTION OF ITS ARGUMENTS.

  The contents of the buffers are followed from the launch through the eight segments of @main: a host stretch writes
  some buffers at the stated functions of others and leaves the rest; a region leaves its output array at the
  function its module proves and every other buffer as it found it.  With `e` the edge table, `s`, `d` its source
  and destination vectors, `D` the column of node weights, the regions' outputs are

      T₁ = scaleRows (X · W₁) D,   T₂ = scaleRows (hidden (edgeSum T₁ s d) D b₁ · W₂) D,
      result = softmaxRows (hidden (edgeSum T₂ s d) D b₂ · W_out + b_out).
-/
import proofs.«169769_j73504070303824_2_alg».proof.Proof.Region0
import proofs.«169769_j73504070303824_2_alg».proof.Proof.Region1
import proofs.«169769_j73504070303824_2_alg».proof.Proof.Region2
import proofs.«169769_j73504070303824_2_alg».proof.Proof.HostStages

set_option maxRecDepth 16384

noncomputable section

namespace Cert.KernelIdeal.KernelValue

open Idealize.ShloMosaic Idealize.ShloMosaic.TcCoe Idealize.SL.Sem Idealize.ShloMosaic.StableHlo Idealize.ShloMosaic.Tactic
open Idealize.ShloMosaic.Pipeline (Dat Cfg Window)
open Cert.KernelIdeal Cert.KernelIdeal.Gen Cert.KernelIdeal.HostStages Cert.Layers

variable (m : (ℓ : Loc nD τ sig) → Buf (Elt Ideal) ℓ) (ρ : Dev nD → PrngReg)

/-! ## The three regions' outputs, as functions of the arguments -/

/-- Region 0's output: the features times the first matrix, rows scaled by the node weights. -/
def T1 (c : Dev nD) : S100000x128.Idx → EReal :=
  scaleRows (product (m ((c : Thread nD τ).loc main_arg0)) (m ((c : Thread nD τ).loc main_arg2))) (dinvColOf (m ((c : Thread nD τ).loc main_arg1)))

/-- Region 1's output. -/
def T2 (c : Dev nD) : S100000x128.Idx → EReal :=
  scaleRows (product (hidden (edgeSum (T1 m c) (srcOf (m ((c : Thread nD τ).loc main_arg1))) (dstOf (m ((c : Thread nD τ).loc main_arg1)))) (dinvColOf (m ((c : Thread nD τ).loc main_arg1)))
    (shapeCast S1x128 (m ((c : Thread nD τ).loc main_arg3)) shapeCasts_S128_S1x128)) (m ((c : Thread nD τ).loc main_arg4))) (dinvColOf (m ((c : Thread nD τ).loc main_arg1)))

/-- Region 2's output: the kernel's result. -/
def out (c : Dev nD) : S100000x8.Idx → EReal :=
  softmaxRows (addRow (product (hidden (edgeSum (T2 m c) (srcOf (m ((c : Thread nD τ).loc main_arg1))) (dstOf (m ((c : Thread nD τ).loc main_arg1)))) (dinvColOf (m ((c : Thread nD τ).loc main_arg1)))
    (shapeCast S1x128 (m ((c : Thread nD τ).loc main_arg5)) shapeCasts_S128_S1x128)) (m ((c : Thread nD τ).loc main_arg6))) (shapeCast S1x8 (m ((c : Thread nD τ).loc main_arg7)) shapeCasts_S8_S1x8))

/-! ## At region 0's entry (after the three first stretches) -/

/-- A buffer none of the three first stretches writes holds its launch contents. -/
theorem W3_keep (c : Dev nD) (b : Ref sig .tc)
    (h0 : ∀ val : Valuation τ sig (Elt Ideal), StableHlo.after (hostOps0 (F := Ideal)) val (Proc.devRef .tc b) = val (Proc.devRef .tc b))
    (h1 : ∀ val : Valuation τ sig (Elt Ideal), StableHlo.after (hostOps0_1 (F := Ideal)) val (Proc.devRef .tc b) = val (Proc.devRef .tc b))
    (h2 : ∀ val : Valuation τ sig (Elt Ideal), StableHlo.after (hostOps0_2 (F := Ideal)) val (Proc.devRef .tc b) = val (Proc.devRef .tc b)) :
    W3 (F := Ideal) m ρ c (Proc.devRef .tc b) = m ((c : Thread nD τ).loc b) :=
  (h2 (W2 m ρ c)).trans ((h1 (W1 m ρ c)).trans ((h0 (W0 m ρ c)).trans rfl))

theorem W3_main_arg0 (c : Dev nD) : W3 (F := Ideal) m ρ c (Proc.devRef .tc main_arg0) = (m ((c : Thread nD τ).loc main_arg0)) :=
  W3_keep m ρ c main_arg0 (fun val => by after_results <;> rfl) (fun val => by after_results <;> rfl) (fun val => by after_results <;> rfl)
theorem W3_main_arg2 (c : Dev nD) : W3 (F := Ideal) m ρ c (Proc.devRef .tc main_arg2) = (m ((c : Thread nD τ).loc main_arg2)) :=
  W3_keep m ρ c main_arg2 (fun val => by after_results <;> rfl) (fun val => by after_results <;> rfl) (fun val => by after_results <;> rfl)
theorem W3_main_arg3 (c : Dev nD) : W3 (F := Ideal) m ρ c (Proc.devRef .tc main_arg3) = (m ((c : Thread nD τ).loc main_arg3)) :=
  W3_keep m ρ c main_arg3 (fun val => by after_results <;> rfl) (fun val => by after_results <;> rfl) (fun val => by after_results <;> rfl)
theorem W3_main_arg4 (c : Dev nD) : W3 (F := Ideal) m ρ c (Proc.devRef .tc main_arg4) = (m ((c : Thread nD τ).loc main_arg4)) :=
  W3_keep m ρ c main_arg4 (fun val => by after_results <;> rfl) (fun val => by after_results <;> rfl) (fun val => by after_results <;> rfl)
theorem W3_main_arg5 (c : Dev nD) : W3 (F := Ideal) m ρ c (Proc.devRef .tc main_arg5) = (m ((c : Thread nD τ).loc main_arg5)) :=
  W3_keep m ρ c main_arg5 (fun val => by after_results <;> rfl) (fun val => by after_results <;> rfl) (fun val => by after_results <;> rfl)
theorem W3_main_arg6 (c : Dev nD) : W3 (F := Ideal) m ρ c (Proc.devRef .tc main_arg6) = (m ((c : Thread nD τ).loc main_arg6)) :=
  W3_keep m ρ c main_arg6 (fun val => by after_results <;> rfl) (fun val => by after_results <;> rfl) (fun val => by after_results <;> rfl)
theorem W3_main_arg7 (c : Dev nD) : W3 (F := Ideal) m ρ c (Proc.devRef .tc main_arg7) = (m ((c : Thread nD τ).loc main_arg7)) :=
  W3_keep m ρ c main_arg7 (fun val => by after_results <;> rfl) (fun val => by after_results <;> rfl) (fun val => by after_results <;> rfl)

theorem W3_src (c : Dev nD) : W3 (F := Ideal) m ρ c (Proc.devRef .tc main_v3) = srcOf (m ((c : Thread nD τ).loc main_arg1)) :=
  ((fun val => by after_results <;> rfl) (W2 m ρ c) : W3 (F := Ideal) m ρ c (Proc.devRef .tc main_v3) = W2 m ρ c (Proc.devRef .tc main_v3)).trans
    (((fun val => by after_results <;> rfl) (W1 m ρ c) : W2 (F := Ideal) m ρ c (Proc.devRef .tc main_v3) = W1 m ρ c (Proc.devRef .tc main_v3)).trans ((first_src (W0 m ρ c)).trans rfl))
theorem W3_dst (c : Dev nD) : W3 (F := Ideal) m ρ c (Proc.devRef .tc main_v6) = dstOf (m ((c : Thread nD τ).loc main_arg1)) :=
  ((fun val => by after_results <;> rfl) (W2 m ρ c) : W3 (F := Ideal) m ρ c (Proc.devRef .tc main_v6) = W2 m ρ c (Proc.devRef .tc main_v6)).trans
    (((fun val => by after_results <;> rfl) (W1 m ρ c) : W2 (F := Ideal) m ρ c (Proc.devRef .tc main_v6) = W1 m ρ c (Proc.devRef .tc main_v6)).trans ((first_dst (W0 m ρ c)).trans rfl))

theorem W2_dinv (c : Dev nD) : W2 (F := Ideal) m ρ c (Proc.devRef .tc main_v14) = dinvOf (m ((c : Thread nD τ).loc main_arg1)) := by
  have e12 : W1 (F := Ideal) m ρ c (Proc.devRef .tc main_v12) = _ := first_pos (W0 m ρ c)
  have e13 : W1 (F := Ideal) m ρ c (Proc.devRef .tc main_v13) = _ := first_rsqrt (W0 m ρ c)
  have ecst : W1 (F := Ideal) m ρ c (Proc.devRef .tc main_cst_2) = _ := first_zero (W0 m ρ c)
  refine (second_dinv (W1 m ρ c)).trans ?_
  rw [e12, e13, ecst]
  rfl
theorem W3_dinv (c : Dev nD) : W3 (F := Ideal) m ρ c (Proc.devRef .tc main_v15) = dinvColOf (m ((c : Thread nD τ).loc main_arg1)) :=
  (third_col (W2 m ρ c)).trans (congrArg (fun v => shapeCast S100000x1 v shapeCasts_S100000_S100000x1) (W2_dinv m ρ c))

/-! ## After region 0 -/

theorem W4_T1 (c : Dev nD) : W4 (F := Ideal) m ρ c (Proc.devRef .tc main_v16) = T1 m c := by
  refine (W4_arr m ρ c 3).trans ((Cert.KernelIdeal.Region0.final (V3 m ρ) c).trans ?_)
  have a0 : V3 (F := Ideal) m ρ c main_arg0 = _ := W3_main_arg0 m ρ c
  have a2 : V3 (F := Ideal) m ρ c main_arg2 = _ := W3_main_arg2 m ρ c
  have a15 : V3 (F := Ideal) m ρ c main_v15 = _ := W3_dinv m ρ c
  rw [a0, a2, a15]
  rfl
theorem W4_dinv (c : Dev nD) : W4 (F := Ideal) m ρ c (Proc.devRef .tc main_v15) = dinvColOf (m ((c : Thread nD τ).loc main_arg1)) :=
  (W4_arr m ρ c 1).trans ((((dat0 (V3 m ρ) c).arrAt_in 1 rfl _).trans (A_eq0 (V3 m ρ) c 1)).trans (W3_dinv m ρ c))
theorem W4_src (c : Dev nD) : W4 (F := Ideal) m ρ c (Proc.devRef .tc main_v3) = srcOf (m ((c : Thread nD τ).loc main_arg1)) :=
  (W4_of_ne m ρ c main_v3 (by decide)).trans (W3_src m ρ c)
theorem W4_dst (c : Dev nD) : W4 (F := Ideal) m ρ c (Proc.devRef .tc main_v6) = dstOf (m ((c : Thread nD τ).loc main_arg1)) :=
  (W4_of_ne m ρ c main_v6 (by decide)).trans (W3_dst m ρ c)
theorem W4_main_arg3 (c : Dev nD) : W4 (F := Ideal) m ρ c (Proc.devRef .tc main_arg3) = (m ((c : Thread nD τ).loc main_arg3)) :=
  (W4_of_ne m ρ c main_arg3 (by decide)).trans (W3_main_arg3 m ρ c)
theorem W4_main_arg4 (c : Dev nD) : W4 (F := Ideal) m ρ c (Proc.devRef .tc main_arg4) = (m ((c : Thread nD τ).loc main_arg4)) :=
  (W4_of_ne m ρ c main_arg4 (by decide)).trans (W3_main_arg4 m ρ c)
theorem W4_main_arg5 (c : Dev nD) : W4 (F := Ideal) m ρ c (Proc.devRef .tc main_arg5) = (m ((c : Thread nD τ).loc main_arg5)) :=
  (W4_of_ne m ρ c main_arg5 (by decide)).trans (W3_main_arg5 m ρ c)
theorem W4_main_arg6 (c : Dev nD) : W4 (F := Ideal) m ρ c (Proc.devRef .tc main_arg6) = (m ((c : Thread nD τ).loc main_arg6)) :=
  (W4_of_ne m ρ c main_arg6 (by decide)).trans (W3_main_arg6 m ρ c)
theorem W4_main_arg7 (c : Dev nD) : W4 (F := Ideal) m ρ c (Proc.devRef .tc main_arg7) = (m ((c : Thread nD τ).loc main_arg7)) :=
  (W4_of_ne m ρ c main_arg7 (by decide)).trans (W3_main_arg7 m ρ c)

/-! ## At region 1's entry (after the fourth stretch) -/

theorem W5_sum (c : Dev nD) : W5 (F := Ideal) m ρ c (Proc.devRef .tc main_v27)
    = edgeSum (T1 m c) (srcOf (m ((c : Thread nD τ).loc main_arg1))) (dstOf (m ((c : Thread nD τ).loc main_arg1))) := by
  refine (fourth_sum (W4 m ρ c)).trans ?_
  rw [W4_T1, W4_src, W4_dst]
theorem W5_bias (c : Dev nD) : W5 (F := Ideal) m ρ c (Proc.devRef .tc main_v28) = shapeCast S1x128 (m ((c : Thread nD τ).loc main_arg3)) shapeCasts_S128_S1x128 := by
  refine (fourth_bias (W4 m ρ c)).trans ?_
  rw [W4_main_arg3]
theorem W5_dinv (c : Dev nD) : W5 (F := Ideal) m ρ c (Proc.devRef .tc main_v15) = dinvColOf (m ((c : Thread nD τ).loc main_arg1)) :=
  ((fun val => by after_results <;> rfl) (W4 m ρ c) : W5 (F := Ideal) m ρ c (Proc.devRef .tc main_v15) = W4 m ρ c (Proc.devRef .tc main_v15)).trans (W4_dinv m ρ c)
theorem W5_src (c : Dev nD) : W5 (F := Ideal) m ρ c (Proc.devRef .tc main_v3) = srcOf (m ((c : Thread nD τ).loc main_arg1)) :=
  ((fun val => by after_results <;> rfl) (W4 m ρ c) : W5 (F := Ideal) m ρ c (Proc.devRef .tc main_v3) = W4 m ρ c (Proc.devRef .tc main_v3)).trans (W4_src m ρ c)
theorem W5_dst (c : Dev nD) : W5 (F := Ideal) m ρ c (Proc.devRef .tc main_v6) = dstOf (m ((c : Thread nD τ).loc main_arg1)) :=
  ((fun val => by after_results <;> rfl) (W4 m ρ c) : W5 (F := Ideal) m ρ c (Proc.devRef .tc main_v6) = W4 m ρ c (Proc.devRef .tc main_v6)).trans (W4_dst m ρ c)
theorem W5_main_arg4 (c : Dev nD) : W5 (F := Ideal) m ρ c (Proc.devRef .tc main_arg4) = (m ((c : Thread nD τ).loc main_arg4)) :=
  ((fun val => by after_results <;> rfl) (W4 m ρ c) : W5 (F := Ideal) m ρ c (Proc.devRef .tc main_arg4) = W4 m ρ c (Proc.devRef .tc main_arg4)).trans (W4_main_arg4 m ρ c)
theorem W5_main_arg5 (c : Dev nD) : W5 (F := Ideal) m ρ c (Proc.devRef .tc main_arg5) = (m ((c : Thread nD τ).loc main_arg5)) :=
  ((fun val => by after_results <;> rfl) (W4 m ρ c) : W5 (F := Ideal) m ρ c (Proc.devRef .tc main_arg5) = W4 m ρ c (Proc.devRef .tc main_arg5)).trans (W4_main_arg5 m ρ c)
theorem W5_main_arg6 (c : Dev nD) : W5 (F := Ideal) m ρ c (Proc.devRef .tc main_arg6) = (m ((c : Thread nD τ).loc main_arg6)) :=
  ((fun val => by after_results <;> rfl) (W4 m ρ c) : W5 (F := Ideal) m ρ c (Proc.devRef .tc main_arg6) = W4 m ρ c (Proc.devRef .tc main_arg6)).trans (W4_main_arg6 m ρ c)
theorem W5_main_arg7 (c : Dev nD) : W5 (F := Ideal) m ρ c (Proc.devRef .tc main_arg7) = (m ((c : Thread nD τ).loc main_arg7)) :=
  ((fun val => by after_results <;> rfl) (W4 m ρ c) : W5 (F := Ideal) m ρ c (Proc.devRef .tc main_arg7) = W4 m ρ c (Proc.devRef .tc main_arg7)).trans (W4_main_arg7 m ρ c)

/-! ## After region 1 -/

theorem W6_T2 (c : Dev nD) : W6 (F := Ideal) m ρ c (Proc.devRef .tc main_v29) = T2 m c := by
  refine (W6_arr m ρ c 4).trans ((Cert.KernelIdeal.Region1.final (V5 m ρ) c).trans ?_)
  have a27 : V5 (F := Ideal) m ρ c main_v27 = _ := W5_sum m ρ c
  have a15 : V5 (F := Ideal) m ρ c main_v15 = _ := W5_dinv m ρ c
  have a28 : V5 (F := Ideal) m ρ c main_v28 = _ := W5_bias m ρ c
  have a4 : V5 (F := Ideal) m ρ c main_arg4 = _ := W5_main_arg4 m ρ c
  rw [a27, a15, a28, a4]
  rfl
theorem W6_dinv (c : Dev nD) : W6 (F := Ideal) m ρ c (Proc.devRef .tc main_v15) = dinvColOf (m ((c : Thread nD τ).loc main_arg1)) :=
  (W6_arr m ρ c 1).trans ((((dat1 (V5 m ρ) c).arrAt_in 1 rfl _).trans (A_eq1 (V5 m ρ) c 1)).trans (W5_dinv m ρ c))
theorem W6_src (c : Dev nD) : W6 (F := Ideal) m ρ c (Proc.devRef .tc main_v3) = srcOf (m ((c : Thread nD τ).loc main_arg1)) :=
  (W6_of_ne m ρ c main_v3 (by decide)).trans (W5_src m ρ c)
theorem W6_dst (c : Dev nD) : W6 (F := Ideal) m ρ c (Proc.devRef .tc main_v6) = dstOf (m ((c : Thread nD τ).loc main_arg1)) :=
  (W6_of_ne m ρ c main_v6 (by decide)).trans (W5_dst m ρ c)
theorem W6_main_arg5 (c : Dev nD) : W6 (F := Ideal) m ρ c (Proc.devRef .tc main_arg5) = (m ((c : Thread nD τ).loc main_arg5)) :=
  (W6_of_ne m ρ c main_arg5 (by decide)).trans (W5_main_arg5 m ρ c)
theorem W6_main_arg6 (c : Dev nD) : W6 (F := Ideal) m ρ c (Proc.devRef .tc main_arg6) = (m ((c : Thread nD τ).loc main_arg6)) :=
  (W6_of_ne m ρ c main_arg6 (by decide)).trans (W5_main_arg6 m ρ c)
theorem W6_main_arg7 (c : Dev nD) : W6 (F := Ideal) m ρ c (Proc.devRef .tc main_arg7) = (m ((c : Thread nD τ).loc main_arg7)) :=
  (W6_of_ne m ρ c main_arg7 (by decide)).trans (W5_main_arg7 m ρ c)

/-! ## At region 2's entry (after the fifth stretch) -/

theorem W7_sum (c : Dev nD) : W7 (F := Ideal) m ρ c (Proc.devRef .tc main_v40)
    = edgeSum (T2 m c) (srcOf (m ((c : Thread nD τ).loc main_arg1))) (dstOf (m ((c : Thread nD τ).loc main_arg1))) := by
  refine (fifth_sum (W6 m ρ c)).trans ?_
  rw [W6_T2, W6_src, W6_dst]
theorem W7_bias (c : Dev nD) : W7 (F := Ideal) m ρ c (Proc.devRef .tc main_v41) = shapeCast S1x128 (m ((c : Thread nD τ).loc main_arg5)) shapeCasts_S128_S1x128 := by
  refine (fifth_bias (W6 m ρ c)).trans ?_
  rw [W6_main_arg5]
theorem W7_obias (c : Dev nD) : W7 (F := Ideal) m ρ c (Proc.devRef .tc main_v42) = shapeCast S1x8 (m ((c : Thread nD τ).loc main_arg7)) shapeCasts_S8_S1x8 := by
  refine (fifth_obias (W6 m ρ c)).trans ?_
  rw [W6_main_arg7]
theorem W7_dinv (c : Dev nD) : W7 (F := Ideal) m ρ c (Proc.devRef .tc main_v15) = dinvColOf (m ((c : Thread nD τ).loc main_arg1)) :=
  ((fun val => by after_results <;> rfl) (W6 m ρ c) : W7 (F := Ideal) m ρ c (Proc.devRef .tc main_v15) = W6 m ρ c (Proc.devRef .tc main_v15)).trans (W6_dinv m ρ c)
theorem W7_main_arg6 (c : Dev nD) : W7 (F := Ideal) m ρ c (Proc.devRef .tc main_arg6) = (m ((c : Thread nD τ).loc main_arg6)) :=
  ((fun val => by after_results <;> rfl) (W6 m ρ c) : W7 (F := Ideal) m ρ c (Proc.devRef .tc main_arg6) = W6 m ρ c (Proc.devRef .tc main_arg6)).trans (W6_main_arg6 m ρ c)

/-! ## After region 2: the result -/

/-- THE KERNEL'S RESULT: the last boundary's contents of the result's buffer is `out` of the arguments. -/
theorem W8_out (c : Dev nD) : W8 (F := Ideal) m ρ c (Proc.devRef .tc main_v43) = out m c := by
  refine (W8_arr m ρ c 5).trans ((Cert.KernelIdeal.Region2.final (V7 m ρ) c).trans ?_)
  have a40 : V7 (F := Ideal) m ρ c main_v40 = _ := W7_sum m ρ c
  have a15 : V7 (F := Ideal) m ρ c main_v15 = _ := W7_dinv m ρ c
  have a41 : V7 (F := Ideal) m ρ c main_v41 = _ := W7_bias m ρ c
  have a6 : V7 (F := Ideal) m ρ c main_arg6 = _ := W7_main_arg6 m ρ c
  have a42 : V7 (F := Ideal) m ρ c main_v42 = _ := W7_obias m ρ c
  rw [a40, a15, a41, a6, a42]
  rfl

end Cert.KernelIdeal.KernelValue

end
-- ==== Proof.LibRowScatter2.lean ====
/-
  A ROW SCATTER AND A ROW GATHER OF A RANK-2 ARRAY, READ AT AN INDEX.

  The operand is a table `[N, C]` of `N` rows of `C` columns; the indices are a column `[R, 1]` of `R` row numbers
  (any words: they are read as SIGNED integers).
  • The row gather (offset axis 1, collapsed axis 0, start index map `[0]`, index vector on axis 1, slices `[1, C]`)
    gives the `[R, C]` array whose row `r` is the table's row number `idx r`, CLAMPED into `[0, N − 1]`.
  • The row scatter (update window axis 1, inserted window axis 0, scatter axis to operand axis `[0]`, index vector on
    axis 1) sends update element `(r, f)` to table element `(idx r, f)`, and DROPS it when `idx r` is not a row
    of the table (no clamping).  With an additive body the exact (order-free) sum of the extended reals is: table
    element `(n, f)` plus the sum over all update rows `r` with `idx r = n` of the update's element `(r, f)`.
  Also here: a sum over `Fin k` with `k = m + n` split into the first `m` and the last `n` terms, and the two column
  broadcasts `[R] → [R, 1]` and `[R, 1] → [R, C]` read at an index.
-/
import Idealize.ShloMosaic.Lib.ValueIdx
import Idealize.ShloMosaic.Lib.IdealHost

noncomputable section

open scoped BigOperators

namespace Idealize.ShloMosaic.RowScatter2

open Idealize.ShloMosaic Idealize.ShloMosaic.ValueIdx

/-! ## Sums over an initial and a final segment -/

/-- A sum over `Fin k`, `k = m + n`, is the sum of its first `m` terms plus the sum of its last `n` terms. -/
theorem sum_fin_split {M : Type*} [AddCommMonoid M] (m n k : Nat) (h : k = m + n) (g : Fin k → M) :
    ∑ r, g r = ∑ j : Fin m, g ⟨j.val, by omega⟩ + ∑ i : Fin n, g ⟨m + i.val, by omega⟩ := by
  subst h
  exact Fin.sum_univ_add g

/-- An axis is among the axes kept beside the list `l` exactly when it is not in `l`. -/
theorem mem_kept_iff {s : Shape} (l : List (Fin s.rank)) (a : Fin s.rank) : a ∈ s.kept l ↔ a ∉ l := by
  simp [Shape.kept, List.mem_filter, List.mem_finRange]

/-! ## The column broadcasts -/

/-- A vector `[R]` made a column `[R, 1]`: the column's entry `(r, 0)` is the vector's entry `r`. -/
theorem bcast_col_apply {α : Type} {R : Nat} (h : (⟨1, ![R]⟩ : Shape).BroadcastsInDim ⟨2, ![R, 1]⟩ ![0])
    (v : (⟨1, ![R]⟩ : Shape).Idx → α) (r : Fin R) (z : Fin 1) :
    broadcastInDim ⟨2, ![R, 1]⟩ ![0] h v (ix2 r z) = v (ix1 r) := by
  unfold broadcastInDim
  refine congrArg v (funext fun a => Fin.ext ?_)
  match a with
  | ⟨0, _⟩ =>
    dsimp only
    split
    · rename_i h1
      have hR : R = 1 := h1
      have := r.isLt
      show 0 = r.val
      omega
    · rfl

/-- A column `[R, 1]` spread over `C` columns: entry `(r, f)` of the result is the column's entry `(r, 0)`. -/
theorem bcast_cols_apply {α : Type} {R C : Nat}
    (h : (⟨2, ![R, 1]⟩ : Shape).BroadcastsInDim ⟨2, ![R, C]⟩ ![0, 1])
    (v : (⟨2, ![R, 1]⟩ : Shape).Idx → α) (r : Fin R) (f : Fin C) :
    broadcastInDim ⟨2, ![R, C]⟩ ![0, 1] h v (ix2 r f) = v (ix2 r (0 : Fin 1)) := by
  unfold broadcastInDim
  refine congrArg v (funext fun a => Fin.ext ?_)
  match a with
  | ⟨0, _⟩ =>
    dsimp only
    split
    · rename_i h1
      have hR : R = 1 := h1
      have := r.isLt
      show 0 = r.val
      omega
    · rfl
  | ⟨1, _⟩ =>
    dsimp only
    split
    · rfl
    · rename_i h1
      exact absurd rfl h1

/-! ## The row gather -/

section Gather
variable {α : Type}

/-- The row gather's dimension numbers for a table `[N, C]`, row numbers `[R, 1]` and a result `[R, C]`; their conditions
    `wf` are decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, f)`: the table at row `idx[r, 0]`, read signed and clamped into `[0, N − 1]`, column
    `f`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (f : Fin C) :
    Host.gather (rowGatherDims N R C wf) x idx (ix2 r f)
      = x (ix2 ⟨min (idx (ix2 r (0 : Fin 1))).toInt.toNat (N - 1), by omega⟩ f) := by
  unfold Host.gather
  congr 1
  funext a
  refine Fin.ext ?_
  match a with
  | ⟨0, _⟩ =>
    show (rowGatherDims N R C wf).start (ix2 r f) idx 0 + (rowGatherDims N R C wf).batchCoord (ix2 r f) 0
      + (rowGatherDims N R C wf).offCoord (ix2 r f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r f) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r f) idx 1 + (rowGatherDims N R C wf).batchCoord (ix2 r f) 1
      + (rowGatherDims N R C wf).offCoord (ix2 r f) 1 = f.val
    rw [GatherDims.batchCoord_eq_zero _ _ _ List.not_mem_nil]
    have hs : (rowGatherDims N R C wf).start (ix2 r f) idx 1 = 0 := by
      unfold GatherDims.start
      rw [dif_neg (show (1 : Fin 2) ∉ (rowGatherDims N R C wf).startIndexMap from
        fun h => Nat.one_ne_zero (congrArg Fin.val (List.mem_singleton.mp h)))]
    have ho : (rowGatherDims N R C wf).offCoord (ix2 r f) 1 = f.val := by
      unfold GatherDims.offCoord
      rw [dif_pos (show (1 : Fin 2) ∈ (rowGatherDims N R C wf).sKept from (GatherDims.mem_sKept _ _).2
        ⟨fun h => Nat.one_ne_zero (congrArg Fin.val (List.mem_singleton.mp h)), List.not_mem_nil⟩)]
      rfl
    rw [hs, ho]; omega

/-- A row number, read as a signed integer and clamped into the table's rows `[0, N − 1]`. -/
def clampRow (N : Nat) (hN : 0 < N) {w : Nat} (z : BitVec w) : Fin N := ⟨min z.toInt.toNat (N - 1), by omega⟩

/-- A row number whose signed value is the row `i` of the table is left where it is by the clamp. -/
theorem clampRow_of_toInt {N w : Nat} (hN : 0 < N) (z : BitVec w) (i : Fin N) (hz : z.toInt = (i.val : Int)) :
    clampRow N hN z = i := by
  refine Fin.ext ?_
  show min z.toInt.toNat (N - 1) = i.val
  have := i.isLt
  omega

/-- The row gather read at `(r, f)`, with the clamped row number named: the table at `(clampRow idx[r, 0], f)`. -/
theorem rowGather_apply_clampRow {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (f : Fin C) :
    Host.gather (rowGatherDims N R C wf) x idx (ix2 r f) = x (ix2 (clampRow N hN (idx (ix2 r (0 : Fin 1)))) f) :=
  rowGather_apply hN wf x idx r f

end Gather

/-! ## The row scatter -/

section Scatter

/-- The row scatter's dimension numbers for a table `[N, C]`, row numbers `[R, 1]` and updates `[R, C]`; their conditions
    `wf` are decided on a program's literal shapes. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the table's row axis the window of update `(r, f)` starts at the row number `idx[r, 0]`, read signed … -/
theorem rowScatter_start0 (idx : IVec ⟨2, ![R, 1]⟩ w) (r : Fin R) (f : Fin C) :
    (rowScatterDims N R C wf).start (ix2 r f) idx 0 = (idx (ix2 r (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 r f) ⟨List.idxOf (0 : Fin 2) (rowScatterDims N R C wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- … and on the column axis at `0`. -/
theorem rowScatter_start1 (idx : IVec ⟨2, ![R, 1]⟩ w) (r : Fin R) (f : Fin C) :
    (rowScatterDims N R C wf).start (ix2 r f) idx 1 = 0 := by
  unfold ScatterDims.start
  rw [dif_neg (show (1 : Fin 2) ∉ (rowScatterDims N R C wf).scatterDimsToOperandDims from
    fun h => Nat.one_ne_zero (congrArg Fin.val (List.mem_singleton.mp h)))]

/-- The window coordinate of update `(r, f)` is `0` on the row axis … -/
theorem rowScatter_window0 (r : Fin R) (f : Fin C) : (rowScatterDims N R C wf).window (ix2 r f) 0 = 0 := by
  unfold ScatterDims.window
  rw [dif_neg (show (0 : Fin 2) ∉ (rowScatterDims N R C wf).sKept from
    fun h => (mem_kept_iff _ _).1 h (List.mem_singleton.mpr rfl))]

/-- … and `f` on the column axis. -/
theorem rowScatter_window1 (r : Fin R) (f : Fin C) : (rowScatterDims N R C wf).window (ix2 r f) 1 = f.val := by
  unfold ScatterDims.window
  rw [dif_pos (show (1 : Fin 2) ∈ (rowScatterDims N R C wf).sKept from (mem_kept_iff _ _).2
    fun h => Nat.one_ne_zero (congrArg Fin.val (List.mem_singleton.mp h)))]
  rfl

/-- WHERE AN UPDATE LANDS: update element `(r, f)` lands on table element `(n, f')` exactly when the row number
    `idx[r, 0]`, read signed, is `n`, and the columns agree.  (A row number that is negative or at least `N` is no row
    `n` of the table: that update lands nowhere.) -/
theorem rowScatter_resultIdx?_eq_some_iff (idx : IVec ⟨2, ![R, 1]⟩ w) (r : Fin R) (f : Fin C) (n : Fin N) (f' : Fin C) :
    (rowScatterDims N R C wf).resultIdx? (ix2 r f) idx = some (ix2 n f')
      ↔ (idx (ix2 r (0 : Fin 1))).toInt = (n.val : Int) ∧ f = f' := by
  have hs0 := rowScatter_start0 wf idx r f
  have hs1 := rowScatter_start1 wf idx r f
  have hw0 := rowScatter_window0 wf r f
  have hw1 := rowScatter_window1 wf r f
  have hn := n.isLt
  have hf := f.isLt
  unfold ScatterDims.resultIdx?
  constructor
  · intro e
    split at e
    · rename_i h
      have e' := Option.some.inj e
      have e0 : ((rowScatterDims N R C wf).start (ix2 r f) idx 0 + ((rowScatterDims N R C wf).window (ix2 r f) 0 : Nat)).toNat
          = n.val := congrArg (fun k => (k 0).val) e'
      have e1 : ((rowScatterDims N R C wf).start (ix2 r f) idx 1 + ((rowScatterDims N R C wf).window (ix2 r f) 1 : Nat)).toNat
          = f'.val := congrArg (fun k => (k 1).val) e'
      have h0 := (h 0).1
      rw [hs0, hw0] at e0 h0
      rw [hs1, hw1] at e1
      exact ⟨by omega, Fin.ext (by omega)⟩
    · exact absurd e (by simp)
  · rintro ⟨hz, rfl⟩
    have hall : ∀ a : Fin 2, 0 ≤ (rowScatterDims N R C wf).start (ix2 r f) idx a + ((rowScatterDims N R C wf).window (ix2 r f) a : Nat)
        ∧ (rowScatterDims N R C wf).start (ix2 r f) idx a + ((rowScatterDims N R C wf).window (ix2 r f) a : Nat)
          < ((⟨2, ![N, C]⟩ : Shape).size a : Nat) := by
      intro a
      match a with
      | ⟨0, _⟩ =>
        show 0 ≤ (rowScatterDims N R C wf).start (ix2 r f) idx 0 + ((rowScatterDims N R C wf).window (ix2 r f) 0 : Nat)
          ∧ (rowScatterDims N R C wf).start (ix2 r f) idx 0 + ((rowScatterDims N R C wf).window (ix2 r f) 0 : Nat) < (N : Int)
        rw [hs0, hw0]; omega
      | ⟨1, _⟩ =>
        show 0 ≤ (rowScatterDims N R C wf).start (ix2 r f) idx 1 + ((rowScatterDims N R C wf).window (ix2 r f) 1 : Nat)
          ∧ (rowScatterDims N R C wf).start (ix2 r f) idx 1 + ((rowScatterDims N R C wf).window (ix2 r f) 1 : Nat) < (C : Int)
        rw [hs1, hw1]; omega
    rw [dif_pos hall]
    congr 1
    funext a
    refine Fin.ext ?_
    match a with
    | ⟨0, _⟩ =>
      show ((rowScatterDims N R C wf).start (ix2 r f) idx 0 + ((rowScatterDims N R C wf).window (ix2 r f) 0 : Nat)).toNat = n.val
      rw [hs0, hw0]; omega
    | ⟨1, _⟩ =>
      show ((rowScatterDims N R C wf).start (ix2 r f) idx 1 + ((rowScatterDims N R C wf).window (ix2 r f) 1 : Nat)).toNat = f.val
      rw [hs1, hw1]; omega

/-- THE ROW SCATTER-ADD READ AT `(n, f)`, at the ideal instance: the table's element plus the sum, over the update rows
    `r` whose row number `idx[r, 0]` (read signed) is `n`, of the update's element `(r, f)`. -/
theorem rowScatterAdd_apply (x : (⟨2, ![N, C]⟩ : Shape).Idx → EReal) (idx : IVec ⟨2, ![R, 1]⟩ w)
    (upd : (⟨2, ![R, C]⟩ : Shape).Idx → EReal) (n : Fin N) (f : Fin C) :
    Ideal.hostScatterAdd (rowScatterDims N R C wf) x idx upd (ix2 n f)
      = x (ix2 n f) + ∑ r : Fin R, if (idx (ix2 r (0 : Fin 1))).toInt = (n.val : Int) then upd (ix2 r f) else 0 := by
  unfold Ideal.hostScatterAdd
  congr 1
  rw [Finset.sum_filter, sum_idx2]
  refine Finset.sum_congr rfl fun r _ => ?_
  simp only [rowScatter_resultIdx?_eq_some_iff]
  by_cases hz : (idx (ix2 r (0 : Fin 1))).toInt = (n.val : Int)
  · simp only [hz, true_and, if_true]
    rw [Finset.sum_ite_eq' Finset.univ f (fun f' => upd (ix2 r f'))]
    simp
  · simp [hz]

end Scatter

end Idealize.ShloMosaic.RowScatter2

end
-- ==== Proof.LibRowIndex.lean ====
import Idealize.ShloMosaic.Lib.ValueIdx
import Idealize.ShloMosaic.Lib.Pipeline.Value
import Idealize.ShloMosaic.Lib.IdealHost

/-!
# Reading rank-1 rows at an index

General lemmas about one-axis arrays: a two-piece concatenation read in its first and in its second piece, the
iota along the one axis, the wrap-around normalisation of a non-negative index word, and the row forms of the
host scatter (`x.at[idx].add(v)`) and the host gather (`x[idx]`) — operand `[M]`, indices `[E, 1]`, updates or
result `[E]` — read at an index.
-/

noncomputable section

namespace RowIndex

open Idealize.ShloMosaic Idealize.ShloMosaic.ValueIdx
open scoped BigOperators

variable {α : Type}

/-! ## One-axis indices -/

/-- A one-axis index is its one coordinate … -/
def idxEquiv1 {n : Nat} : (⟨1, ![n]⟩ : Shape).Idx ≃ Fin n where
  toFun i := i 0
  invFun a := ix1 a
  left_inv i := (eq_ix1 i).symm
  right_inv _ := rfl

/-- … so a sum over one-axis indices is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Concatenation of two rows -/

/-- A concatenation of two rows of lengths `n₁` and `n₂` read at a position `j < n₁` is the first row at `j`. -/
theorem concat1_left {n₁ n₂ n : Nat} (x₁ : (⟨1, ![n₁]⟩ : Shape).Idx → α) (x₂ : (⟨1, ![n₂]⟩ : Shape).Idx → α)
    (h : Shape.Concatenates [⟨1, ![n₁]⟩, ⟨1, ![n₂]⟩] ⟨1, ![n]⟩ 0) (j : Fin n) (hj : j.val < n₁) :
    concatenate ⟨1, ![n]⟩ 0 [⟨⟨1, ![n₁]⟩, x₁⟩, ⟨⟨1, ![n₂]⟩, x₂⟩] h (ix1 j) = x₁ (ix1 ⟨j.val, hj⟩) := by
  refine concatenate_pair_apply_left 0 x₁ x₂ h (ix1 j) rfl (ix1 ⟨j.val, hj⟩) ?_
  intro b
  obtain rfl : b = 0 := Subsingleton.elim _ _
  rfl

/-- A concatenation of two rows of lengths `n₁` and `n₂` read at position `n₁ + i`, `i < n₂`, is the second row
    at `i`. -/
theorem concat1_right {n₁ n₂ n : Nat} (x₁ : (⟨1, ![n₁]⟩ : Shape).Idx → α) (x₂ : (⟨1, ![n₂]⟩ : Shape).Idx → α)
    (h : Shape.Concatenates [⟨1, ![n₁]⟩, ⟨1, ![n₂]⟩] ⟨1, ![n]⟩ 0) (i : Fin n₂) (hi : n₁ + i.val < n) :
    concatenate ⟨1, ![n]⟩ 0 [⟨⟨1, ![n₁]⟩, x₁⟩, ⟨⟨1, ![n₂]⟩, x₂⟩] h (ix1 ⟨n₁ + i.val, hi⟩) = x₂ (ix1 i) := by
  refine concatenate_pair_apply_right 0 x₁ x₂ h (ix1 ⟨n₁ + i.val, hi⟩) rfl rfl (ix1 i) ?_ ?_
  · intro b hb
    obtain rfl : b = 0 := Subsingleton.elim _ _
    exact absurd rfl hb
  · exact Nat.add_comm _ _

/-! ## The iota row and the index normalisation -/

/-- The iota along the one axis of a row reads the position as a word. -/
theorem iota1_apply {n : Nat} (w : Nat) (i : Fin n) : iotaInDim ⟨1, ![n]⟩ w 0 (ix1 i) = BitVec.ofNat w i.val := rfl

/-- A natural number below `2 ^ 31`, as a 32-bit word read signed, is itself. -/
theorem toInt_ofNat32 (i : Nat) (hi : i < 2 ^ 31) : (BitVec.ofNat 32 i).toInt = (i : Int) := by
  rw [BitVec.toInt_eq_toNat_cond, BitVec.toNat_ofNat]
  have : i % 2 ^ 32 = i := Nat.mod_eq_of_lt (by omega)
  rw [this, if_pos (by omega)]

/-- Such a word is not negative: the signed comparison with zero answers no. -/
theorem slt_zero_ofNat32 (i : Nat) (hi : i < 2 ^ 31) : IntOp.cmpi .slt (BitVec.ofNat 32 i) 0#32 = 0#1 := by
  have h := toInt_ofNat32 i hi
  simp only [IntOp.cmpi, BitVec.slt, h, BitVec.toInt_zero]
  have : ¬ ((i : Int) < 0) := by omega
  simp [this]

/-- The wrap-around normalisation `if x < 0 then x + c else x` leaves a word `i < 2 ^ 31` unchanged. -/
theorem nrm_ofNat32 (i : Nat) (hi : i < 2 ^ 31) (c : BitVec 32) :
    Scalar.select (IntOp.cmpi .slt (BitVec.ofNat 32 i) 0#32) (IntOp.addi (BitVec.ofNat 32 i) c) (BitVec.ofNat 32 i)
      = BitVec.ofNat 32 i := by
  rw [slt_zero_ofNat32 i hi]; exact select_zero _ _

/-- A word `i ≤ m` (and below `2 ^ 31`) read signed and clamped into `[0, m]` is `i`. -/
theorem clamp_ofNat32 (i m : Nat) (hi : i < 2 ^ 31) (him : i ≤ m) : min (BitVec.ofNat 32 i).toInt.toNat m = i := by
  rw [toInt_ofNat32 i hi, Int.toNat_natCast]; exact Nat.min_eq_left him

/-! ## A row broadcast to a column of index vectors -/

/-- The row `[E]` laid out as `[E, 1]` (one index per index vector) reads the row at the first coordinate. -/
theorem bcastCol_apply {E : Nat} (h : (⟨1, ![E]⟩ : Shape).BroadcastsInDim ⟨2, ![E, 1]⟩ ![0])
    (x : (⟨1, ![E]⟩ : Shape).Idx → α) (j : Fin E) (z : Fin 1) :
    broadcastInDim ⟨2, ![E, 1]⟩ ![0] h x (ix2 j z) = x (ix1 j) := by
  unfold broadcastInDim
  refine congrArg x (funext fun a => ?_)
  obtain rfl : a = 0 := Subsingleton.elim _ _
  refine Fin.ext ?_
  split
  · next h1 =>
    have : E = 1 := h1
    have := j.isLt
    show 0 = j.val
    omega
  · rfl

/-! ## The row scatter -/

/-- The dimension numbers of `x.at[idx].add(v)` on rows: operand `[M]`, scatter indices `[E, 1]`, updates `[E]`, no
    window axes, the operand's one axis inserted and scattered to, the index vector on axis 1. -/
abbrev rowScatter (M E : Nat) (wf : ScatterDims.WF ⟨1, ![M]⟩ ⟨2, ![E, 1]⟩ ⟨1, ![E]⟩ [] [0] [0] 1) :
    ScatterDims ⟨1, ![M]⟩ ⟨2, ![E, 1]⟩ ⟨1, ![E]⟩ where
  updateWindowDims := []
  insertedWindowDims := [0]
  scatterDimsToOperandDims := [0]
  indexVectorDim := 1
  wf := wf

/-- Update `j` of a row scatter starts at the signed value of its index word. -/
theorem rowScatter_start {M E w : Nat} (wf : ScatterDims.WF ⟨1, ![M]⟩ ⟨2, ![E, 1]⟩ ⟨1, ![E]⟩ [] [0] [0] 1)
    (idx : IVec ⟨2, ![E, 1]⟩ w) (j : Fin E) (a : Fin 1) :
    (rowScatter M E wf).start (ix1 j) idx a = (idx (ix2 j 0)).toInt := by
  obtain rfl : a = 0 := Subsingleton.elim _ _
  unfold ScatterDims.start
  rw [dif_pos (show (0 : Fin 1) ∈ (rowScatter M E wf).scatterDimsToOperandDims from List.mem_singleton.mpr rfl)]
  have hsi : (rowScatter M E wf).siIdx (ix1 j) ⟨List.idxOf (0 : Fin 1) (rowScatter M E wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- A row scatter has no window: the window coordinate is zero. -/
theorem rowScatter_window {M E : Nat} (wf : ScatterDims.WF ⟨1, ![M]⟩ ⟨2, ![E, 1]⟩ ⟨1, ![E]⟩ [] [0] [0] 1)
    (j : Fin E) (a : Fin 1) : (rowScatter M E wf).window (ix1 j) a = 0 := by
  obtain rfl : a = 0 := Subsingleton.elim _ _
  unfold ScatterDims.window
  rw [dif_neg]
  simp [ScatterDims.sKept, Shape.kept]

/-- WHERE UPDATE `j` OF A ROW SCATTER LANDS: at operand position `i` exactly when its index word, read signed, is
    `i` (a word outside `[0, M)` lands nowhere). -/
theorem rowScatter_resultIdx?_eq_some {M E w : Nat}
    (wf : ScatterDims.WF ⟨1, ![M]⟩ ⟨2, ![E, 1]⟩ ⟨1, ![E]⟩ [] [0] [0] 1)
    (idx : IVec ⟨2, ![E, 1]⟩ w) (j : Fin E) (i : Fin M) :
    (rowScatter M E wf).resultIdx? (ix1 j) idx = some (ix1 i) ↔ (idx (ix2 j 0)).toInt = (i.val : Int) := by
  unfold ScatterDims.resultIdx?
  constructor
  · intro h
    split at h
    · next hb =>
      have h0 := congrArg (fun f => (f 0).val) (Option.some.inj h)
      simp only [rowScatter_start, rowScatter_window] at h0
      have hb0 := hb 0
      simp only [rowScatter_start, rowScatter_window] at hb0
      have : ((ix1 i : (⟨1, ![M]⟩ : Shape).Idx) 0).val = i.val := rfl
      rw [this] at h0
      omega
    · exact absurd h (by simp)
  · intro h
    have hb : ∀ a, 0 ≤ (rowScatter M E wf).start (ix1 j) idx a + ((rowScatter M E wf).window (ix1 j) a : Int) ∧
        (rowScatter M E wf).start (ix1 j) idx a + ((rowScatter M E wf).window (ix1 j) a : Int)
          < ((⟨1, ![M]⟩ : Shape).size a : Int) := by
      intro a
      obtain rfl : a = 0 := Subsingleton.elim _ _
      rw [rowScatter_start, rowScatter_window, h]
      have := i.isLt
      show 0 ≤ (i.val : Int) + ((0 : Nat) : Int) ∧ (i.val : Int) + ((0 : Nat) : Int) < ((M : Nat) : Int)
      omega
    rw [dif_pos hb]
    congr 1
    funext a
    obtain rfl : a = 0 := Subsingleton.elim _ _
    refine Fin.ext ?_
    show ((rowScatter M E wf).start (ix1 j) idx 0 + ((rowScatter M E wf).window (ix1 j) 0 : Int)).toNat = i.val
    rw [rowScatter_start, rowScatter_window, h]
    simp

/-! ## The row gather -/

/-- The dimension numbers of `x[idx]` on rows: operand `[M]`, start indices `[E, 1]`, result `[E]`, no offset axes,
    the operand's one axis collapsed and indexed, slices of one element, the index vector on axis 1. -/
abbrev rowGather (M E : Nat) (wf : GatherDims.WF ⟨1, ![M]⟩ ⟨2, ![E, 1]⟩ ⟨1, ![E]⟩ [] [0] [] [0] [] 1 ![1]) :
    GatherDims ⟨1, ![M]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ROW GATHER READ AT `j`: the operand at index word `j`, read signed and clamped into `[0, M − 1]`. -/
theorem rowGather_apply {M E w : Nat} (hM : 0 < M)
    (wf : GatherDims.WF ⟨1, ![M]⟩ ⟨2, ![E, 1]⟩ ⟨1, ![E]⟩ [] [0] [] [0] [] 1 ![1])
    (x : (⟨1, ![M]⟩ : Shape).Idx → α) (idx : IVec ⟨2, ![E, 1]⟩ w) (j : Fin E) :
    Host.gather (rowGather M E wf) x idx (ix1 j) = x (ix1 ⟨min (idx (ix2 j 0)).toInt.toNat (M - 1), by omega⟩) := by
  unfold Host.gather
  congr 1
  funext a
  obtain rfl : a = 0 := Subsingleton.elim _ _
  refine Fin.ext ?_
  show (rowGather M E wf).start (ix1 j) idx 0 + (rowGather M E wf).batchCoord (ix1 j) 0
    + (rowGather M E wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather M E wf).startIndexMap from List.mem_singleton.mpr rfl)]
  have hsi : (rowGather M E wf).siIdx (ix1 j) ⟨List.idxOf (0 : Fin 1) (rowGather M E wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

end RowIndex

end
-- ==== Proof.EdgeReads.lean ====
/-
  Reading the edge operations of a graph convolution, and two facts about its words and weights.

  • A destination word whose signed value is a node number `n ≥ 0` is left alone by the wrap `if w < 0 then w + c else w`,
    and the clamp into the node range then gives `n` itself.
  • The node weight `if 0 < y then 1/√y else 0` (`y` the degree, any extended real) is nonnegative and never `⊤`.
  • A row scatter-add and a row gather whose dimension numbers are the row ones (whatever name the record has), read at
    an entry: the accumulated table's entry `(n, f)` is the operand's plus the sum over the update rows whose index word is
    `n`; the gathered table's entry `(r, f)` is the operand's entry at the clamped index word of row `r`.
-/
import Idealize.ShloMosaic.Lib.ValueIdx
import Idealize.ShloMosaic.Lib.IdealHost
import Idealize.ShloMosaic.PureOps.Ideal
import Idealize.ShloMosaic.PureOps.Ideal.Laws
import proofs.«169769_j73504070303824_2_alg».proof.Proof.LibRowScatter2
import proofs.«169769_j73504070303824_2_alg».proof.Proof.LibRowIndex

noncomputable section

open scoped BigOperators

namespace Cert.EdgeReads

open Idealize.ShloMosaic Idealize.ShloMosaic.ValueIdx Idealize.ShloMosaic.RowScatter2

/-! ## Words -/

/-- A word that is not negative answers no to the signed comparison with zero … -/
theorem slt_zero_of_nonneg (w : BitVec 32) (h : 0 ≤ w.toInt) : IntOp.cmpi .slt w 0#32 = 0#1 := by
  simp only [IntOp.cmpi, BitVec.slt, BitVec.toInt_zero]
  have : ¬ (w.toInt < 0) := by omega
  simp [this]

/-- … so the wrap leaves it alone. -/
theorem wrap_of_nonneg (w c : BitVec 32) (h : 0 ≤ w.toInt) :
    Scalar.select (IntOp.cmpi .slt w 0#32) (IntOp.addi w c) w = w := by
  rw [slt_zero_of_nonneg w h]; exact select_zero _ _

/-! ## The node weight -/

/-- The weight `if 0 < y then 1/√y else 0` is nonnegative. -/
theorem weight_nonneg (y : EReal) : 0 ≤ Scalar.select (Ideal.cmp .ogt y 0) (Ideal.rsqrt y) (0 : EReal) := by
  by_cases h : (0 : EReal) < y
  · have hc : Ideal.cmp .ogt y 0 = 1#1 := by simp [Ideal.cmp, h]
    rw [hc, select_one]
    induction y using EReal.rec with
    | bot => exact absurd h (by simp)
    | top => simp
    | coe r =>
      have hr : 0 < r := by exact_mod_cast h
      rw [Ideal.rsqrt_coe, if_neg (by linarith), if_neg (by linarith [hr.ne'])]
      exact_mod_cast inv_nonneg.mpr (Real.sqrt_nonneg r)
  · have hc : Ideal.cmp .ogt y 0 = 0#1 := by simp [Ideal.cmp, h]
    rw [hc, select_zero]

/-- The weight is never `⊤`. -/
theorem weight_ne_top (y : EReal) : Scalar.select (Ideal.cmp .ogt y 0) (Ideal.rsqrt y) (0 : EReal) ≠ ⊤ := by
  by_cases h : (0 : EReal) < y
  · have hc : Ideal.cmp .ogt y 0 = 1#1 := by simp [Ideal.cmp, h]
    rw [hc, select_one]
    induction y using EReal.rec with
    | bot => exact absurd h (by simp)
    | top => simp
    | coe r =>
      have hr : 0 < r := by exact_mod_cast h
      rw [Ideal.rsqrt_coe, if_neg (by linarith), if_neg (by linarith [hr.ne'])]
      exact EReal.coe_ne_top _
  · have hc : Ideal.cmp .ogt y 0 = 0#1 := by simp [Ideal.cmp, h]
    rw [hc, select_zero]
    exact EReal.zero_ne_top

/-! ## The row scatter-add and the row gather, for any record with the row dimension numbers -/

variable {N R C w : Nat}

/-- The row scatter-add at `(n, f)`: the operand's entry plus the sum of the updates of the rows whose index word is `n`. -/
theorem scatterRows_read (sd : ScatterDims ⟨2, ![N, C]⟩ ⟨2, ![R, 1]⟩ ⟨2, ![R, C]⟩)
    (wf : ScatterDims.WF ⟨2, ![N, C]⟩ ⟨2, ![R, 1]⟩ ⟨2, ![R, C]⟩ [1] [0] [0] 1) (hsd : sd = rowScatterDims N R C wf)
    (x : (⟨2, ![N, C]⟩ : Shape).Idx → EReal) (idx : IVec ⟨2, ![R, 1]⟩ w) (upd : (⟨2, ![R, C]⟩ : Shape).Idx → EReal)
    (n : Fin N) (f : Fin C) :
    Ideal.hostScatterAdd sd x idx upd (ix2 n f)
      = x (ix2 n f) + ∑ r : Fin R, if (idx (ix2 r (0 : Fin 1))).toInt = (n.val : Int) then upd (ix2 r f) else 0 := by
  subst hsd; exact rowScatterAdd_apply wf x idx upd n f

/-- The same, for the host's accumulating scatter as a program prints it. -/
theorem hostScatterRows_read {φ : FTy} (sd : ScatterDims ⟨2, ![N, C]⟩ ⟨2, ![R, 1]⟩ ⟨2, ![R, C]⟩)
    (wf : ScatterDims.WF ⟨2, ![N, C]⟩ ⟨2, ![R, 1]⟩ ⟨2, ![R, C]⟩ [1] [0] [0] 1) (hsd : sd = rowScatterDims N R C wf)
    (x : FVec Ideal ⟨2, ![N, C]⟩ φ) (idx : IVec ⟨2, ![R, 1]⟩ w) (upd : FVec Ideal ⟨2, ![R, C]⟩ φ)
    (n : Fin N) (f : Fin C) :
    Host.scatterAdd sd x idx upd (ix2 n f)
      = x (ix2 n f) + ∑ r : Fin R, if (idx (ix2 r (0 : Fin 1))).toInt = (n.val : Int) then upd (ix2 r f) else 0 :=
  scatterRows_read sd wf hsd x idx upd n f

/-- The row gather at `(r, f)`: the operand at the clamped index word of row `r`, column `f`. -/
theorem gatherRows_read {α : Type} (hN : 0 < N) (gd : GatherDims ⟨2, ![N, C]⟩ ⟨2, ![R, 1]⟩ ⟨2, ![R, C]⟩)
    (wf : GatherDims.WF ⟨2, ![N, C]⟩ ⟨2, ![R, 1]⟩ ⟨2, ![R, C]⟩ [1] [0] [] [0] [] 1 ![1, C]) (hgd : gd = rowGatherDims N R C wf)
    (x : (⟨2, ![N, C]⟩ : Shape).Idx → α) (idx : IVec ⟨2, ![R, 1]⟩ w) (r : Fin R) (f : Fin C) :
    Host.gather gd x idx (ix2 r f) = x (ix2 (clampRow N hN (idx (ix2 r (0 : Fin 1)))) f) := by
  subst hgd; exact rowGather_apply_clampRow hN wf x idx r f

/-- The gather of single entries of a vector, at `r`: the vector at the clamped index word of row `r`. -/
theorem gatherEntries_read {α : Type} (hN : 0 < N) (gd : GatherDims ⟨1, ![N]⟩ ⟨2, ![R, 1]⟩ ⟨1, ![R]⟩)
    (wf : GatherDims.WF ⟨1, ![N]⟩ ⟨2, ![R, 1]⟩ ⟨1, ![R]⟩ [] [0] [] [0] [] 1 ![1]) (hgd : gd = RowIndex.rowGather N R wf)
    (x : (⟨1, ![N]⟩ : Shape).Idx → α) (idx : IVec ⟨2, ![R, 1]⟩ w) (r : Fin R) :
    Host.gather gd x idx (ix1 r) = x (ix1 (clampRow N hN (idx (ix2 r (0 : Fin 1))))) := by
  subst hgd; exact RowIndex.rowGather_apply hN wf x idx r

end Cert.EdgeReads

end
-- ==== Proof.EdgeSumLaw.lean ====
/-
  THE LAW THAT JOINS THE TWO SIDES, on the extended reals.

  A graph convolution sums, for a destination node `n`, the messages of the edges that end at `n`; the message of
  an edge `e` is the source node's row scaled by `D (s e) · D (d e)`, the two endpoint weights.  For an edge that ends
  at `n` the destination weight is `D n`, the same for every term of the sum, so it may be taken out of the sum:

      (∑ over edges e ending at n of  a (s e) · D (s e)) · D n  =  ∑ over edges e ending at n of  a (s e) · (D (s e) · D (d e)).

  On the extended reals a common factor moves across a sum when it is nonnegative and not `⊤`, whatever the summands
  are (no finiteness of the summands is used).  The endpoint weights of this file's use are inverse square roots of
  positive degrees, or zero: nonnegative and never `⊤`.
-/
import Mathlib.Data.EReal.Operations
import Mathlib.Data.EReal.Inv
import Mathlib.Algebra.BigOperators.Group.Finset.Basic
import Mathlib.Algebra.BigOperators.Fin

open scoped BigOperators

namespace EdgeSumLaw

/-- A factor that is nonnegative and not `⊤` distributes over a finite sum of extended reals. -/
theorem mul_sum_of_nonneg_ne_top {ι : Type*} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- THE LAW: the destination weight of the edges ending at `n` taken out of their sum.  `land e n` says that edge `e`
    ends at node `n`; for such an edge `d e = n` (`hd`).  The sums start from `0`, as an accumulation into a zero
    table does. -/
theorem scaled_edge_sum {E N : Nat} (D : Fin N → EReal) (hD0 : ∀ i, 0 ≤ D i) (hDt : ∀ i, D i ≠ ⊤)
    (land : Fin E → Fin N → Prop) [∀ e n, Decidable (land e n)] (s d : Fin E → Fin N)
    (hd : ∀ e n, land e n → d e = n) (a : Fin N → EReal) (n : Fin N) :
    (0 + ∑ e : Fin E, if land e n then a (s e) * D (s e) else 0) * D n
      = 0 + ∑ e : Fin E, if land e n then a (s e) * (D (s e) * D (d e)) else 0 := by
  rw [zero_add, zero_add, mul_comm, mul_sum_of_nonneg_ne_top _ _ (hD0 n) (hDt n)]
  refine Finset.sum_congr rfl fun e _ => ?_
  by_cases h : land e n
  · rw [if_pos h, if_pos h, hd e n h, mul_comm, mul_assoc]
  · rw [if_neg h, if_neg h, mul_zero]

end EdgeSumLaw
-- ==== Proof.BridgeEdges.lean ====
/-
  THE TWO PROGRAMS' EDGE OPERATIONS, READ AT AN ENTRY, AND THE LAW BETWEEN THEM.

  Both programs build the same source and destination vectors and the same node weights from the edge table `e`.
  With `w_s(r)` the wrapped source word of edge `r`, `w_d(r)` its destination word, `⌊·⌋` the clamp into the node range
  and `D` the node weights:
  • the kernel's neighbourhood sum of a table `T` is, at `(n, f)`, the sum over the edges with `w_d(r) = n` of `T(⌊w_s(r)⌋, f)`;
  • the reference's weighted sum of a table `A` is, at `(n, f)`, the sum over the same edges of
    `A(⌊w_s(r)⌋, f) · (D ⌊w_s(r)⌋ · D ⌊wrap w_d(r)⌋)`, and for those edges `⌊wrap w_d(r)⌋ = n`.
  So the kernel's sum of the table `A` with rows scaled by `D`, times `D n`, is the reference's weighted sum (the law
  of EdgeSumLaw, the weights nonnegative and never `⊤`).
-/
import proofs.«169769_j73504070303824_2_alg».proof.Proof.RefRead
import proofs.«169769_j73504070303824_2_alg».proof.Proof.HostStages
import proofs.«169769_j73504070303824_2_alg».proof.Proof.Layers
import proofs.«169769_j73504070303824_2_alg».proof.Proof.EdgeReads
import proofs.«169769_j73504070303824_2_alg».proof.Proof.EdgeSumLaw
import proofs.«169769_j73504070303824_2_alg».proof.Proof.LibColRow

set_option maxRecDepth 16384

noncomputable section

open scoped BigOperators

namespace Cert.Bridge

open Idealize.ShloMosaic Idealize.ShloMosaic.ValueIdx Idealize.ShloMosaic.RowScatter2
open Cert.Layers Cert.EdgeReads
open Cert.KernelIdeal.HostStages Cert.ReferenceIdeal.Read

/-- The edge table, as both programs take it. -/
abbrev EdgeTable := (⟨Cert.ReferenceIdeal.S2x1600000, .i32⟩ : BufTy).Contents (Elt Ideal)

variable (e : EdgeTable)

/-! ## The two programs build the same vectors and weights -/

theorem src_eq : srcOf e = val_main_v3 (F := Ideal) e := rfl
theorem dst_eq : dstOf e = val_main_v6 (F := Ideal) e := rfl
theorem dinv_eq : dinvOf e = val_main_v14 (F := Ideal) e := rfl
theorem wrap_src_eq : wrap (srcOf e) = val_main_v35 (F := Ideal) e := rfl
theorem wrap_src_eq' : val_main_v19 (F := Ideal) e = val_main_v35 (F := Ideal) e := rfl

/-- The weight of node `i`. -/
def nodeWeight (i : Fin 100000) : EReal := val_main_v14 (F := Ideal) e (ix1 i)

/-- The clamped wrapped source word of edge `r`. -/
def srcNode (r : Fin 1700000) : Fin 100000 := clampRow 100000 (by decide) (val_main_v35 (F := Ideal) e (ix1 r))
/-- The clamped wrapped destination word of edge `r`. -/
def dstNode (r : Fin 1700000) : Fin 100000 := clampRow 100000 (by decide) (val_main_v26 (F := Ideal) e (ix1 r))
/-- Edge `r` ends at node `n`: its destination word, read signed, is `n`. -/
def endsAt (r : Fin 1700000) (n : Fin 100000) : Prop := (val_main_v6 (F := Ideal) e (ix1 r)).toInt = (n.val : Int)
instance (r : Fin 1700000) (n : Fin 100000) : Decidable (endsAt e r n) := by unfold endsAt; infer_instance

/-- The weight of node `i` is `if 0 < deg then 1/√deg else 0` of the node's degree. -/
theorem nodeWeight_eq (i : Fin 100000) :
    nodeWeight e i = Scalar.select (Ideal.cmp .ogt (val_main_v10 (F := Ideal) e (ix1 i)) 0)
      (Ideal.rsqrt (val_main_v10 (F := Ideal) e (ix1 i))) (0 : EReal) := by
  unfold nodeWeight
  rw [val_main_v14_apply, val_main_v12_apply, val_main_v13_apply, val_main_v11_apply, val_main_cst_1_apply,
    val_main_call0_v1_apply, val_main_call0_v0_apply, val_main_cst_2_apply]
  rw [Ideal.cmpf_def, Ideal.hostUnary_rsqrt_def, Ideal.ofBits_def, Ideal.ofBits_zero_f32]

theorem nodeWeight_nonneg (i : Fin 100000) : 0 ≤ nodeWeight e i := by
  rw [nodeWeight_eq]; exact weight_nonneg _

theorem nodeWeight_ne_top (i : Fin 100000) : nodeWeight e i ≠ ⊤ := by
  rw [nodeWeight_eq]; exact weight_ne_top _

/-- The weight column at `(a, 0)` is the weight of node `a`. -/
theorem dinvCol_apply (a : Fin 100000) : dinvColOf e (ix2 a (0 : Fin 1)) = nodeWeight e a := by
  unfold dinvColOf
  rw [Cert.LibColRow.shapeCast_col_apply]
  rfl

/-- An edge that ends at `n` has `n` as its clamped wrapped destination. -/
theorem dstNode_of_endsAt (r : Fin 1700000) (n : Fin 100000) (h : endsAt e r n) : dstNode e r = n := by
  unfold dstNode
  refine clampRow_of_toInt (by decide) _ n ?_
  have hw : val_main_v26 (F := Ideal) e (ix1 r) = val_main_v6 (F := Ideal) e (ix1 r) := by
    show Scalar.select (IntOp.cmpi .slt (val_main_v6 (F := Ideal) e (ix1 r)) 0#32)
      (IntOp.addi (val_main_v6 (F := Ideal) e (ix1 r)) 100000#32) (val_main_v6 (F := Ideal) e (ix1 r)) = _
    exact wrap_of_nonneg _ _ (by rw [show (val_main_v6 (F := Ideal) e (ix1 r)).toInt = (n.val : Int) from h]; omega)
  rw [hw]; exact h

/-! ## The kernel's neighbourhood sum at an entry -/

theorem edgeSum_read (T : FVec Ideal Cert.KernelIdeal.S100000x128 .bf16) (n : Fin 100000) (f : Fin 128) :
    edgeSum T (srcOf e) (dstOf e) (ix2 n f)
      = zeroW + ∑ r : Fin 1700000, if endsAt e r n then T (ix2 (srcNode e r) f) else 0 := by
  unfold edgeSum
  rw [hostScatterRows_read Cert.KernelIdeal.scatter_S100000x128_S1700000x1_S1700000x128_1_0_0_1 Cert.KernelIdeal.Gen.scatter_S100000x128_S1700000x1_S1700000x128_1_0_0_1_wf rfl]
  refine congrArg₂ (· + ·) rfl (Finset.sum_congr rfl fun r _ => ?_)
  rw [bcast_col_apply]
  refine if_congr Iff.rfl ?_ rfl
  rw [extf_apply, gatherRows_read (by decide) Cert.KernelIdeal.gather_S100000x128_S1700000x1_S1700000x128_1_0_n_n_0_1_1128 Cert.KernelIdeal.Gen.gather_S100000x128_S1700000x1_S1700000x128_1_0_n_n_0_1_1128_wf rfl, bcast_col_apply]
  rfl

/-! ## The reference's weighted sum at an entry -/

/-- The reference's weighted neighbourhood sum of a table `A`: gather the source rows, scale each by its edge's two
    weights, accumulate at the destinations. -/
def refAggOf (A : FVec Ideal Cert.ReferenceIdeal.S100000x128 .f32) : FVec Ideal Cert.ReferenceIdeal.S100000x128 .f32 :=
  Host.scatterAdd Cert.ReferenceIdeal.scatter_S100000x128_S1700000x1_S1700000x128_1_0_0_1 (val_main_v41 (F := Ideal)) (val_main_v42 (F := Ideal) e)
    (mulf (Host.gather Cert.ReferenceIdeal.gather_S100000x128_S1700000x1_S1700000x128_1_0_n_n_0_1_1128 A (val_main_v36 (F := Ideal) e)) (val_main_v39 (F := Ideal) e))

/-- The first weight of edge `r`: the weight of its clamped wrapped source. -/
theorem srcWeight_read (r : Fin 1700000) : val_main_v21 (F := Ideal) e (ix1 r) = nodeWeight e (srcNode e r) := by
  unfold val_main_v21
  rw [gatherEntries_read (by decide) Cert.ReferenceIdeal.gather_S100000_S1700000x1_S1700000_n_0_n_n_0_1_1 Cert.ReferenceIdeal.Gen.gather_S100000_S1700000x1_S1700000_n_0_n_n_0_1_1_wf rfl]
  unfold val_main_v20
  rw [bcast_col_apply, wrap_src_eq']
  unfold nodeWeight srcNode
  rfl

/-- The second weight of edge `r`: the weight of its clamped wrapped destination. -/
theorem dstWeight_read (r : Fin 1700000) : val_main_v28 (F := Ideal) e (ix1 r) = nodeWeight e (dstNode e r) := by
  unfold val_main_v28
  rw [gatherEntries_read (by decide) Cert.ReferenceIdeal.gather_S100000_S1700000x1_S1700000_n_0_n_n_0_1_1 Cert.ReferenceIdeal.Gen.gather_S100000_S1700000x1_S1700000_n_0_n_n_0_1_1_wf rfl]
  unfold val_main_v27
  rw [bcast_col_apply]
  unfold nodeWeight dstNode
  rfl

/-- The weight product of edge `r`. -/
theorem norm_read (r : Fin 1700000) :
    val_main_v29 (F := Ideal) e (ix1 r) = nodeWeight e (srcNode e r) * nodeWeight e (dstNode e r) := by
  rw [val_main_v29_apply, srcWeight_read, dstWeight_read, Ideal.mulf_def]

theorem refAgg_read (A : FVec Ideal Cert.ReferenceIdeal.S100000x128 .f32) (n : Fin 100000) (f : Fin 128) :
    refAggOf e A (ix2 n f)
      = zeroW + ∑ r : Fin 1700000, if endsAt e r n then
          A (ix2 (srcNode e r) f) * (nodeWeight e (srcNode e r) * nodeWeight e (dstNode e r)) else 0 := by
  unfold refAggOf
  rw [hostScatterRows_read Cert.ReferenceIdeal.scatter_S100000x128_S1700000x1_S1700000x128_1_0_0_1 Cert.ReferenceIdeal.Gen.scatter_S100000x128_S1700000x1_S1700000x128_1_0_0_1_wf rfl]
  refine congrArg₂ (· + ·) rfl (Finset.sum_congr rfl fun r _ => ?_)
  unfold val_main_v42
  rw [bcast_col_apply]
  refine if_congr Iff.rfl ?_ rfl
  rw [mulf_apply, gatherRows_read (by decide) Cert.ReferenceIdeal.gather_S100000x128_S1700000x1_S1700000x128_1_0_n_n_0_1_1128 Cert.ReferenceIdeal.Gen.gather_S100000x128_S1700000x1_S1700000x128_1_0_n_n_0_1_1128_wf rfl]
  unfold val_main_v36 val_main_v39 val_main_v38
  rw [bcast_col_apply, bcast_cols_apply, bcast_col_apply, norm_read]
  unfold srcNode
  rfl

/-! ## The law -/

/-- The kernel's neighbourhood sum of `A` with rows scaled by the weights, times the destination's weight, is the
    reference's weighted sum of `A`. -/
theorem layer_law (A : FVec Ideal Cert.ReferenceIdeal.S100000x128 .f32) (n : Fin 100000) (f : Fin 128) :
    edgeSum (scaleRows A (dinvColOf e)) (srcOf e) (dstOf e) (ix2 n f) * dinvColOf e (ix2 n (0 : Fin 1))
      = refAggOf e A (ix2 n f) := by
  rw [edgeSum_read, refAgg_read, dinvCol_apply]
  have hT : ∀ r : Fin 1700000, scaleRows A (dinvColOf e) (ix2 (srcNode e r) f)
      = A (ix2 (srcNode e r) f) * nodeWeight e (srcNode e r) := fun r => by
    show A (ix2 (srcNode e r) f) * dinvColOf e (ix2 (srcNode e r) (0 : Fin 1)) = _
    rw [dinvCol_apply]
  simp only [hT]
  show (Ideal.ofBits .f32 0x00000000#32 + _) * _ = Ideal.ofBits .f32 0x00000000#32 + _
  rw [Ideal.ofBits_zero_f32]
  exact EdgeSumLaw.scaled_edge_sum (nodeWeight e) (nodeWeight_nonneg e) (nodeWeight_ne_top e) (endsAt e) (srcNode e) (dstNode e)
    (dstNode_of_endsAt e) (fun a => A (ix2 a f)) n

end Cert.Bridge

end
-- ==== Proof.BridgeLayers.lean ====
/-
  THE TWO PROGRAMS, LAYER BY LAYER.

  With the edge law in hand the rest is reading: the reference's three `dot_general`s are the matrix products; its
  first activation `max (weighted sum + b₁, 0)` is the kernel's `hidden` of the neighbourhood sums of the scaled
  product (the law moves the destination weight into the sum); the second layer repeats the first over the first
  activation; the logits add the output bias row; and the reference's softmax — row maximum by a fold from `−∞`, once
  more against `−∞`, exponentials of the differences, their sum from `0`, the quotient — is `softmaxRows`.
-/
import proofs.«169769_j73504070303824_2_alg».proof.Proof.BridgeEdges

set_option maxRecDepth 16384

noncomputable section

open scoped BigOperators

namespace Cert.Bridge

open Idealize.ShloMosaic Idealize.ShloMosaic.ValueIdx
open Cert.Layers
open Cert.KernelIdeal.HostStages Cert.ReferenceIdeal.Read

variable (x0 : (⟨Cert.ReferenceIdeal.S100000x128, .f32⟩ : BufTy).Contents (Elt Ideal)) (e : EdgeTable)
  (x2 : (⟨Cert.ReferenceIdeal.S128x128, .f32⟩ : BufTy).Contents (Elt Ideal)) (x3 : (⟨Cert.ReferenceIdeal.S128, .f32⟩ : BufTy).Contents (Elt Ideal))
  (x4 : (⟨Cert.ReferenceIdeal.S128x128, .f32⟩ : BufTy).Contents (Elt Ideal)) (x5 : (⟨Cert.ReferenceIdeal.S128, .f32⟩ : BufTy).Contents (Elt Ideal))
  (x6 : (⟨Cert.ReferenceIdeal.S128x8, .f32⟩ : BufTy).Contents (Elt Ideal)) (x7 : (⟨Cert.ReferenceIdeal.S8, .f32⟩ : BufTy).Contents (Elt Ideal))

/-! ## The three matrix products -/

theorem v30_eq : val_main_v30 (F := Ideal) x0 x2 = product x0 x2 := by
  funext i
  obtain ⟨n, j, rfl⟩ : ∃ (n : Fin 100000) (j : Fin 128), i = ix2 n j := ⟨i 0, i 1, eq_ix2 i⟩
  rw [val_main_v30_apply]
  exact Finset.sum_congr rfl fun k _ => by
    rw [show lidx_main_v30 (ix2 n j) k = ix2 n k from funext fun a => Fin.ext (by match a with | ⟨0, _⟩ => rfl | ⟨1, _⟩ => rfl), show ridx_main_v30 (ix2 n j) k = ix2 k j from funext fun a => Fin.ext (by match a with | ⟨0, _⟩ => rfl | ⟨1, _⟩ => rfl)]

theorem v48_eq : (val_main_v48 (F := Ideal) x0 e x2 x3 x4) = product (val_main_v47 (F := Ideal) x0 e x2 x3) x4 := by
  funext i
  obtain ⟨n, j, rfl⟩ : ∃ (n : Fin 100000) (j : Fin 128), i = ix2 n j := ⟨i 0, i 1, eq_ix2 i⟩
  rw [val_main_v48_apply]
  exact Finset.sum_congr rfl fun k _ => by
    rw [show lidx_main_v48 (ix2 n j) k = ix2 n k from funext fun a => Fin.ext (by match a with | ⟨0, _⟩ => rfl | ⟨1, _⟩ => rfl), show ridx_main_v48 (ix2 n j) k = ix2 k j from funext fun a => Fin.ext (by match a with | ⟨0, _⟩ => rfl | ⟨1, _⟩ => rfl)]

theorem v66_eq : val_main_v66 (F := Ideal) x0 e x2 x3 x4 x5 x6 = product (val_main_v65 (F := Ideal) x0 e x2 x3 x4 x5) x6 := by
  funext i
  obtain ⟨n, j, rfl⟩ : ∃ (n : Fin 100000) (j : Fin 8), i = ix2 n j := ⟨i 0, i 1, eq_ix2 i⟩
  rw [val_main_v66_apply]
  exact Finset.sum_congr rfl fun k _ => by
    rw [show lidx_main_v66 (ix2 n j) k = ix2 n k from funext fun a => Fin.ext (by match a with | ⟨0, _⟩ => rfl | ⟨1, _⟩ => rfl), show ridx_main_v66 (ix2 n j) k = ix2 k j from funext fun a => Fin.ext (by match a with | ⟨0, _⟩ => rfl | ⟨1, _⟩ => rfl)]

/-! ## The reference's weighted sums are `refAggOf` of its products -/

theorem v43_eq : val_main_v43 (F := Ideal) x0 e x2 = refAggOf e (val_main_v30 (F := Ideal) x0 x2) := rfl
theorem v61_eq : val_main_v61 (F := Ideal) x0 e x2 x3 x4 = refAggOf e (val_main_v48 (F := Ideal) x0 e x2 x3 x4) := rfl

/-! ## The two activations -/

/-- The first activation: the kernel's `hidden` of the neighbourhood sums of the scaled product is the reference's. -/
theorem hidden1_eq : (hidden (edgeSum (scaleRows (product x0 x2) (dinvColOf e)) (srcOf e) (dstOf e)) (dinvColOf e) (shapeCast Cert.KernelIdeal.S1x128 x3 Cert.KernelIdeal.Gen.shapeCasts_S128_S1x128)) = (val_main_v47 (F := Ideal) x0 e x2 x3) := by
  funext i
  obtain ⟨n, k, rfl⟩ : ∃ (n : Fin 100000) (k : Fin 128), i = ix2 n k := ⟨i 0, i 1, eq_ix2 i⟩
  rw [hidden_apply, layer_law e (product x0 x2) n k, Cert.LibColRow.shapeCast_row_apply]
  rw [val_main_v47_apply, val_main_v46_apply, val_main_v45_apply, val_main_v44_apply, val_main_call1_v0_apply,
    val_main_call1_cst_apply, v43_eq, v30_eq, Ideal.maximumf_def, Ideal.addf_def, Ideal.ofBits_def]
  exact congrArg₂ max (congrArg₂ (· + ·) rfl (congrArg x3 (funext fun a => Fin.ext (by match a with | ⟨0, _⟩ => rfl)))) rfl

/-- The second activation, over the product of the first with the second matrix. -/
theorem hidden2_eq : (hidden (edgeSum (scaleRows (val_main_v48 (F := Ideal) x0 e x2 x3 x4) (dinvColOf e)) (srcOf e) (dstOf e)) (dinvColOf e) (shapeCast Cert.KernelIdeal.S1x128 x5 Cert.KernelIdeal.Gen.shapeCasts_S128_S1x128)) = (val_main_v65 (F := Ideal) x0 e x2 x3 x4 x5) := by
  funext i
  obtain ⟨n, k, rfl⟩ : ∃ (n : Fin 100000) (k : Fin 128), i = ix2 n k := ⟨i 0, i 1, eq_ix2 i⟩
  rw [hidden_apply, layer_law e (val_main_v48 (F := Ideal) x0 e x2 x3 x4) n k, Cert.LibColRow.shapeCast_row_apply]
  rw [val_main_v65_apply, val_main_v64_apply, val_main_v63_apply, val_main_v62_apply, val_main_call2_v0_apply,
    val_main_call2_cst_apply, v61_eq, Ideal.maximumf_def, Ideal.addf_def, Ideal.ofBits_def]
  exact congrArg₂ max (congrArg₂ (· + ·) rfl (congrArg x5 (funext fun a => Fin.ext (by match a with | ⟨0, _⟩ => rfl)))) rfl

/-! ## The logits and the softmax -/

theorem logits_eq : addRow (product (val_main_v65 (F := Ideal) x0 e x2 x3 x4 x5) x6) (shapeCast Cert.KernelIdeal.S1x8 x7 Cert.KernelIdeal.Gen.shapeCasts_S8_S1x8) = (val_main_v69 (F := Ideal) x0 e x2 x3 x4 x5 x6 x7) := by
  funext i
  obtain ⟨n, j, rfl⟩ : ∃ (n : Fin 100000) (j : Fin 8), i = ix2 n j := ⟨i 0, i 1, eq_ix2 i⟩
  rw [addRow_apply, Cert.LibColRow.shapeCast_row_apply, val_main_v69_apply, val_main_v68_apply, val_main_v67_apply, v66_eq, Ideal.addf_def]
  exact congrArg₂ (· + ·) rfl (congrArg x7 (funext fun a => Fin.ext (by match a with | ⟨0, _⟩ => rfl)))

/-! ### The reference's softmax, for any table of logits

The reference's operations after the logits are stated for a table `L` that is a variable: the row maximum by a fold
from `−∞` and once more against `−∞`, laid out as a column and spread over the eight columns; the exponentials of
the differences; their row sums from `0`, laid out and spread the same way; the quotient. -/

/-- The row maxima, in the reference's operations. -/
def refRowMax (L : FVec Ideal Cert.ReferenceIdeal.S100000x8 .f32) : FVec Ideal Cert.ReferenceIdeal.S100000 .f32 :=
  maximumf (val_main_v71 (F := Ideal)) (Host.reduce FloatOps.maximumf L (val_main_cst_12 (F := Ideal)) Cert.ReferenceIdeal.Gen.reducesTo_S100000x8_S100000_d1 Cert.ReferenceIdeal.Gen.h_S_)

/-- The exponentials of the logits less their row's maximum, in the reference's operations. -/
def refExpDiff (L : FVec Ideal Cert.ReferenceIdeal.S100000x8 .f32) : FVec Ideal Cert.ReferenceIdeal.S100000x8 .f32 :=
  Host.exp (subf L (broadcastInDim Cert.ReferenceIdeal.S100000x8 ![0, 1] Cert.ReferenceIdeal.Gen.bcast_S100000x1_S100000x8_0_1
    (broadcastInDim Cert.ReferenceIdeal.S100000x1 ![0] Cert.ReferenceIdeal.Gen.bcast_S100000_S100000x1_0 (refRowMax L))))

/-- The reference's softmax of a table of logits, in its own operations. -/
def refSoftmax (L : FVec Ideal Cert.ReferenceIdeal.S100000x8 .f32) : FVec Ideal Cert.ReferenceIdeal.S100000x8 .f32 :=
  Host.divf (refExpDiff L) (broadcastInDim Cert.ReferenceIdeal.S100000x8 ![0, 1] Cert.ReferenceIdeal.Gen.bcast_S100000x1_S100000x8_0_1
    (broadcastInDim Cert.ReferenceIdeal.S100000x1 ![0] Cert.ReferenceIdeal.Gen.bcast_S100000_S100000x1_0
      (Host.reduceAdd (refExpDiff L) (val_main_cst_14 (F := Ideal)) Cert.ReferenceIdeal.Gen.reducesTo_S100000x8_S100000_d1 Cert.ReferenceIdeal.Gen.h_S_)))

/-- The host's quotient and exponential of tables, at an entry. -/
theorem hostDivf_at {s : Shape} (a b : FVec Ideal s .f32) (i : s.Idx) : Host.divf a b i = Ideal.div (a i) (b i) := rfl
theorem hostExp_at {s : Shape} (a : FVec Ideal s .f32) (i : s.Idx) : Host.exp a i = Ideal.exp (a i) := rfl

section AnyLogits
variable (L : FVec Ideal Cert.ReferenceIdeal.S100000x8 .f32)

theorem refRowMax_apply (n : Fin 100000) : refRowMax L (ix1 n) = rowMax L n := by
  unfold refRowMax
  rw [maximumf_apply, val_main_v71_apply, val_main_cst_13_apply, Ideal.ofBits_def]
  unfold rowMax
  refine congrArg (max ninfW) ?_
  have hf : (FloatOps.maximumf : Ideal .f32 → Ideal .f32 → Ideal .f32) = (max : EReal → EReal → EReal) := rfl
  rw [hf]
  refine (Host.reduce_eq_fold_single (max : EReal → EReal → EReal) L (val_main_cst_12 (F := Ideal))
    Cert.ReferenceIdeal.Gen.reducesTo_S100000x8_S100000_d1 (by decide) Cert.ReferenceIdeal.Gen.h_S_ (ix1 n)).trans ?_
  have hrow : (L ∘ (by decide : Cert.ReferenceIdeal.S100000x8.Reduces [1] Cert.ReferenceIdeal.S100000).lift (ix1 n)) = fun k : Fin 8 => L (ix2 n k) :=
    funext fun k => congrArg L (funext fun a => Fin.ext (by match a with | ⟨0, _⟩ => rfl | ⟨1, _⟩ => rfl))
  rw [hrow]
  rfl

theorem refExpDiff_apply (n : Fin 100000) (k : Fin 8) : refExpDiff L (ix2 n k) = Ideal.exp (L (ix2 n k) - rowMax L n) := by
  unfold refExpDiff
  rw [hostExp_at, subf_apply, Idealize.ShloMosaic.RowScatter2.bcast_cols_apply, Idealize.ShloMosaic.RowScatter2.bcast_col_apply, refRowMax_apply]

theorem refSoftmax_eq : refSoftmax L = softmaxRows L := by
  funext i
  obtain ⟨n, j, rfl⟩ : ∃ (n : Fin 100000) (j : Fin 8), i = ix2 n j := ⟨i 0, i 1, eq_ix2 i⟩
  unfold refSoftmax
  rw [hostDivf_at, softmaxRows_apply, refExpDiff_apply, Idealize.ShloMosaic.RowScatter2.bcast_cols_apply, Idealize.ShloMosaic.RowScatter2.bcast_col_apply]
  refine congrArg (Ideal.div _) ?_
  simp only [Host.reduceAdd, Ideal.hostReduceAdd_def]
  rw [Ideal.hostReduceAdd_single Cert.ReferenceIdeal.Gen.reducesTo_S100000x8_S100000_d1 (by decide)]
  rw [val_main_cst_14_apply, Ideal.ofBits_def, Ideal.ofBits_zero_f32, zero_add]
  refine Finset.sum_congr rfl fun k _ => ?_
  exact (congrArg (refExpDiff L) (funext fun a => Fin.ext (by match a with | ⟨0, _⟩ => rfl | ⟨1, _⟩ => rfl))).trans (refExpDiff_apply L n k)

end AnyLogits

/-- The reference's result is its softmax of its logits. -/
theorem v80_eq : val_main_v80 (F := Ideal) x0 e x2 x3 x4 x5 x6 x7 = refSoftmax (val_main_v69 (F := Ideal) x0 e x2 x3 x4 x5 x6 x7) := rfl

theorem softmax_eq : softmaxRows (val_main_v69 (F := Ideal) x0 e x2 x3 x4 x5 x6 x7) = val_main_v80 (F := Ideal) x0 e x2 x3 x4 x5 x6 x7 :=
  ((v80_eq x0 e x2 x3 x4 x5 x6 x7).trans (refSoftmax_eq (val_main_v69 (F := Ideal) x0 e x2 x3 x4 x5 x6 x7))).symm

/-! ## The whole: the kernel's result function of the arguments is the reference's -/

theorem result_eq :
    softmaxRows (addRow (product (hidden (edgeSum (scaleRows (product (hidden (edgeSum (scaleRows (product x0 x2) (dinvColOf e)) (srcOf e) (dstOf e)) (dinvColOf e) (shapeCast Cert.KernelIdeal.S1x128 x3 Cert.KernelIdeal.Gen.shapeCasts_S128_S1x128)) x4) (dinvColOf e)) (srcOf e) (dstOf e)) (dinvColOf e) (shapeCast Cert.KernelIdeal.S1x128 x5 Cert.KernelIdeal.Gen.shapeCasts_S128_S1x128)) x6) (shapeCast Cert.KernelIdeal.S1x8 x7 Cert.KernelIdeal.Gen.shapeCasts_S8_S1x8)) = val_main_v80 (F := Ideal) x0 e x2 x3 x4 x5 x6 x7 :=
  (congrArg (fun H => softmaxRows (addRow (product (hidden (edgeSum (scaleRows (product H x4) (dinvColOf e)) (srcOf e) (dstOf e)) (dinvColOf e) (shapeCast Cert.KernelIdeal.S1x128 x5 Cert.KernelIdeal.Gen.shapeCasts_S128_S1x128)) x6) (shapeCast Cert.KernelIdeal.S1x8 x7 Cert.KernelIdeal.Gen.shapeCasts_S8_S1x8)))
      (hidden1_eq x0 e x2 x3)).trans
    ((congrArg (fun Q => softmaxRows (addRow (product (hidden (edgeSum (scaleRows Q (dinvColOf e)) (srcOf e) (dstOf e)) (dinvColOf e) (shapeCast Cert.KernelIdeal.S1x128 x5 Cert.KernelIdeal.Gen.shapeCasts_S128_S1x128)) x6) (shapeCast Cert.KernelIdeal.S1x8 x7 Cert.KernelIdeal.Gen.shapeCasts_S8_S1x8)))
      (v48_eq x0 e x2 x3 x4).symm).trans
    ((congrArg (fun H => softmaxRows (addRow (product H x6) (shapeCast Cert.KernelIdeal.S1x8 x7 Cert.KernelIdeal.Gen.shapeCasts_S8_S1x8))) (hidden2_eq x0 e x2 x3 x4 x5)).trans
    ((congrArg softmaxRows (logits_eq x0 e x2 x3 x4 x5 x6 x7)).trans (softmax_eq x0 e x2 x3 x4 x5 x6 x7))))

end Cert.Bridge

end
-- ==== Proof.lean ====
/-
  A two-layer graph convolution with a softmax head, as three Pallas kernels between host gathers and scatter-adds,
  against its plain jnp reference: equal results on the extended reals.

  THE REFERENCE.  With `s`, `d` the source and destination vectors (the edge table's two rows, each followed by one self
  loop per node), `deg` the degree (ones accumulated at the destinations), `D = 1/√deg` where `deg > 0` and `0`
  elsewhere, and `norm(r) = D(s r) · D(d r)` per edge `r`:
      layer(H, W, b)(n, ·) = ∑ over the edges r ending at n of (H · W)(s r, ·) · norm(r)  +  b,
      result = softmax over each row of  relu(layer(relu(layer(X, W₁, b₁)), W₂, b₂)) · W_out + b_out.
  THE KERNEL takes the destination weight out of each sum: region 0 writes `(X · W₁)` with row `i` scaled by `D i`; the host
  gathers its source rows and accumulates them at the destinations; region 1 scales the sums by `D n`, adds the bias,
  rectifies, multiplies by `W₂` and scales the rows by `D` again; the host sums over the edges again; region 2 scales,
  adds the bias, rectifies, multiplies by `W_out`, adds `b_out` and takes the softmax of each row.
  THE LAW between them is `(∑ᵣ a(s r) · D(s r)) · D n = ∑ᵣ a(s r) · (D(s r) · D n)` over the edges ending at `n` — a factor
  that is nonnegative and never `⊤` moves across a sum of extended reals whatever the summands are, so the finiteness
  of the float inputs is not used.  An edge whose destination word is not a node number is dropped by both programs'
  accumulations; a source word is wrapped and clamped the same way by both programs' gathers; an edge that ends at
  `n` has a destination word that the wrap and the clamp leave at `n`.  The changes of float format (the kernel keeps
  its intermediate tables in a narrower format) are the identity on the extended reals, and the kernel's block-by-block
  matrix products and lane reductions are the reference's sums.

  The modules: EdgeSumLaw (the law), Layers (the layer functions), Region0/1/2 (each region's output array as a function
  of its input arrays), HostStages and KernelValue (the host stretches, and the kernel's result as one function of the
  arguments), KernelRun (the kernel's run with the result named), EdgeReads, BridgeEdges and BridgeLayers (the reference
  read against the same functions), RefRun and RefRead (the reference's run and its operations read at an index).
-/
import proofs.«169769_j73504070303824_2_alg».proof.Defs
import proofs.«169769_j73504070303824_2_alg».proof.Proof.Gen.Kernel
import proofs.«169769_j73504070303824_2_alg».proof.Proof.Gen.Kernel.Skeleton
import proofs.«169769_j73504070303824_2_alg».proof.Proof.Gen.Kernel.Launch
import proofs.«169769_j73504070303824_2_alg».proof.Proof.Gen.Kernel.Points
import proofs.«169769_j73504070303824_2_alg».proof.Proof.Gen.Kernel.Frame
import proofs.«169769_j73504070303824_2_alg».proof.Proof.Gen.KernelIdeal
import proofs.«169769_j73504070303824_2_alg».proof.Proof.Gen.KernelIdeal.Skeleton
import proofs.«169769_j73504070303824_2_alg».proof.Proof.Gen.KernelIdeal.Launch
import proofs.«169769_j73504070303824_2_alg».proof.Proof.Gen.KernelIdeal.Points
import proofs.«169769_j73504070303824_2_alg».proof.Proof.Gen.KernelIdeal.Frame
import proofs.«169769_j73504070303824_2_alg».proof.Proof.Gen.ReferenceIdeal
import proofs.«169769_j73504070303824_2_alg».proof.Proof.Gen.Pre_finite_inputs
import proofs.«169769_j73504070303824_2_alg».proof.Proof.RefRun
import proofs.«169769_j73504070303824_2_alg».proof.Proof.RefRead
import proofs.«169769_j73504070303824_2_alg».proof.Proof.KernelRun
import proofs.«169769_j73504070303824_2_alg».proof.Proof.KernelValue
import proofs.«169769_j73504070303824_2_alg».proof.Proof.BridgeLayers
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the kernel's at its
    result function of the arguments (the run with the result named, then the walk through the segments), the
    reference's at its composed term, which is the same function (the bridge). -/
theorem algebraic : Cert.algebraic_KernelIdeal_ReferenceIdeal := by
  intro m ρ m' ρ' _ hagree
  refine ⟨fun c => Cert.KernelIdeal.KernelValue.out m c, ?_, ?_⟩
  · exact (θ_run Cert.KernelIdeal.defs _ _).mono
      (fun r h c => ⟨(h c).1.trans (Cert.KernelIdeal.KernelValue.W8_out m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v80_eq, (hagree c).1, (hagree c).2.1, (hagree c).2.2.1, (hagree c).2.2.2.1, (hagree c).2.2.2.2.1, (hagree c).2.2.2.2.2.1, (hagree c).2.2.2.2.2.2.1, (hagree c).2.2.2.2.2.2.2]
    show _ = Cert.KernelIdeal.KernelValue.out m c
    unfold Cert.KernelIdeal.KernelValue.out Cert.KernelIdeal.KernelValue.T2 Cert.KernelIdeal.KernelValue.T1
    exact (Cert.Bridge.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
